-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x256x56x56 : Shape := ⟨4, ![8, 256, 56, 56]⟩
abbrev S2304x256 : Shape := ⟨2, ![2304, 256]⟩
abbrev S256 : Shape := ⟨1, ![256]⟩
abbrev S256x2304 : Shape := ⟨2, ![256, 2304]⟩
abbrev S2304 : Shape := ⟨1, ![2304]⟩
abbrev S_ : Shape := ⟨0, ![]⟩

class Facts : Prop where
  bcast_S_S8x256x56x56 : S_.BroadcastsInDim S8x256x56x56 (![] : Fin 0 → Fin S8x256x56x56.rank)
  reducesTo_S8x256x56x56_S_d0_1_2_3 : S8x256x56x56.ReducesTo [0, 1, 2, 3] S_
  h_S_ : 0 < S_.numel
  bcast_S_S2304x256 : S_.BroadcastsInDim S2304x256 (![] : Fin 0 → Fin S2304x256.rank)
  reducesTo_S2304x256_S_d0_1 : S2304x256.ReducesTo [0, 1] S_
  bcast_S_S256 : S_.BroadcastsInDim S256 (![] : Fin 0 → Fin S256.rank)
  reducesTo_S256_S_d0 : S256.ReducesTo [0] S_
  bcast_S_S256x2304 : S_.BroadcastsInDim S256x2304 (![] : Fin 0 → Fin S256x2304.rank)
  reducesTo_S256x2304_S_d0_1 : S256x2304.ReducesTo [0, 1] S_
  bcast_S_S2304 : S_.BroadcastsInDim S2304 (![] : Fin 0 → Fin S2304.rank)
  reducesTo_S2304_S_d0 : S2304.ReducesTo [0] S_

variable [Facts]

def fn_part1 {F : FTy → Type} [FloatOps F] (main_arg4 : FVec F S2304 .f32) (main_arg5 : FVec F S2304x256 .f32) (main_arg6 : FVec F S256 .f32) (main_v13 : IVec S_ 1) (main_v16 : IVec S256x2304 1) : IVec S_ 1 :=
  let main_c_5 : IVec S_ 1 := constantI S_ 1 1#1
  let main_v17 : IVec S_ 1 := (fun x v => Host.reduce IntOp.andi x v reducesTo_S256x2304_S_d0_1 h_S_) main_v16 main_c_5
  let main_v18 : IVec S_ 1 := andi main_v13 main_v17
  let main_v19 : FVec F S2304 .f32 := Host.absf main_arg4
  let main_cst_6 : FVec F S_ .f32 := constant S_ .f32 0x7F800000#32
  let main_v20 : FVec F S2304 .f32 := broadcastInDim S2304 ![] bcast_S_S2304 main_cst_6
  let main_v21 : IVec S2304 1 := cmpf .olt main_v19 main_v20
  let main_c_7 : IVec S_ 1 := constantI S_ 1 1#1
  let main_v22 : IVec S_ 1 := (fun x v => Host.reduce IntOp.andi x v reducesTo_S2304_S_d0 h_S_) main_v21 main_c_7
  let main_v23 : IVec S_ 1 := andi main_v18 main_v22
  let main_v24 : FVec F S2304x256 .f32 := Host.absf main_arg5
  let main_cst_8 : FVec F S_ .f32 := constant S_ .f32 0x7F800000#32
  let main_v25 : FVec F S2304x256 .f32 := broadcastInDim S2304x256 ![] bcast_S_S2304x256 main_cst_8
  let main_v26 : IVec S2304x256 1 := cmpf .olt main_v24 main_v25
  let main_c_9 : IVec S_ 1 := constantI S_ 1 1#1
  let main_v27 : IVec S_ 1 := (fun x v => Host.reduce IntOp.andi x v reducesTo_S2304x256_S_d0_1 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  main_v33

def fn {F : FTy → Type} [FloatOps F] (main_arg0 : FVec F S8x256x56x56 .f32) (main_arg1 : FVec F S2304x256 .f32) (main_arg2 : FVec F S256 .f32) (main_arg3 : FVec F S256x2304 .f32) (main_arg4 : FVec F S2304 .f32) (main_arg5 : FVec F S2304x256 .f32) (main_arg6 : FVec F S256 .f32) : IVec S_ 1 :=
  let main_v0 : FVec F S8x256x56x56 .f32 := Host.absf main_arg0
  let main_cst : FVec F S_ .f32 := constant S_ .f32 0x7F800000#32
  let main_v1 : FVec F S8x256x56x56 .f32 := broadcastInDim S8x256x56x56 ![] bcast_S_S8x256x56x56 main_cst
  let main_v2 : IVec S8x256x56x56 1 := cmpf .olt main_v0 main_v1
  let main_c : IVec S_ 1 := constantI S_ 1 1#1
  let main_v3 : IVec S_ 1 := (fun x v => Host.reduce IntOp.andi x v reducesTo_S8x256x56x56_S_d0_1_2_3 h_S_) main_v2 main_c
  let main_v4 : FVec F S2304x256 .f32 := Host.absf main_arg1
  let main_cst_0 : FVec F S_ .f32 := constant S_ .f32 0x7F800000#32
  let main_v5 : FVec F S2304x256 .f32 := broadcastInDim S2304x256 ![] bcast_S_S2304x256 main_cst_0
  let main_v6 : IVec S2304x256 1 := cmpf .olt main_v4 main_v5
  let main_c_1 : IVec S_ 1 := constantI S_ 1 1#1
  let main_v7 : IVec S_ 1 := (fun x v => Host.reduce IntOp.andi x v reducesTo_S2304x256_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x2304 .f32 := Host.absf main_arg3
  let main_cst_4 : FVec F S_ .f32 := constant S_ .f32 0x7F800000#32
  let main_v15 : FVec F S256x2304 .f32 := broadcastInDim S256x2304 ![] bcast_S_S256x2304 main_cst_4
  let main_v16 : IVec S256x2304 1 := cmpf .olt main_v14 main_v15
  fn_part1 (F := F) main_arg4 main_arg5 main_arg6 main_v13 main_v16
-- ==== Kernel.lean ====
abbrev S8x256x56x56 : Shape := ⟨4, ![8, 256, 56, 56]⟩
abbrev S2304x256 : Shape := ⟨2, ![2304, 256]⟩
abbrev S256 : Shape := ⟨1, ![256]⟩
abbrev S256x2304 : Shape := ⟨2, ![256, 2304]⟩
abbrev S2304 : Shape := ⟨1, ![2304]⟩
abbrev S8x56x56x256 : Shape := ⟨4, ![8, 56, 56, 256]⟩
abbrev S_ : Shape := ⟨0, ![]⟩
abbrev S8x58x58x256 : Shape := ⟨4, ![8, 58, 58, 256]⟩
abbrev S256x9x256 : Shape := ⟨3, ![256, 9, 256]⟩
abbrev S9x256x256 : Shape := ⟨3, ![9, 256, 256]⟩
abbrev S256x256x9 : Shape := ⟨3, ![256, 256, 9]⟩
abbrev S256x9 : Shape := ⟨2, ![256, 9]⟩
abbrev S9x256 : Shape := ⟨2, ![9, 256]⟩
abbrev S1x2304 : Shape := ⟨2, ![1, 2304]⟩
abbrev S1x256 : Shape := ⟨2, ![1, 256]⟩
abbrev S1x58x58x256 : Shape := ⟨4, ![1, 58, 58, 256]⟩
abbrev S1x56x56x256 : Shape := ⟨4, ![1, 56, 56, 256]⟩
abbrev S784x2304 : Shape := ⟨2, ![784, 2304]⟩
abbrev S1x14x56x256 : Shape := ⟨4, ![1, 14, 56, 256]⟩
abbrev S14x56x256 : Shape := ⟨3, ![14, 56, 256]⟩
abbrev S784x256 : Shape := ⟨2, ![784, 256]⟩
abbrev S8x3136x256 : Shape := ⟨3, ![8, 3136, 256]⟩

abbrev nBuf : Space → Nat
  | .hbm => 31
  | .vmem => 11
  | .smem => 0
  | _ => 0

abbrev bufTy : (tb : Table) → Fin (tcTables nBuf tb) → BufTy
  | .hbm, ⟨0, _⟩ => ⟨S8x256x56x56, .f32⟩
  | .hbm, ⟨1, _⟩ => ⟨S2304x256, .f32⟩
  | .hbm, ⟨2, _⟩ => ⟨S256, .f32⟩
  | .hbm, ⟨3, _⟩ => ⟨S256x2304, .f32⟩
  | .hbm, ⟨4, _⟩ => ⟨S2304, .f32⟩
  | .hbm, ⟨5, _⟩ => ⟨S2304x256, .f32⟩
  | .hbm, ⟨6, _⟩ => ⟨S256, .f32⟩
  | .hbm, ⟨7, _⟩ => ⟨S8x56x56x256, .f32⟩
  | .hbm, ⟨8, _⟩ => ⟨S_, .i32⟩
  | .hbm, ⟨9, _⟩ => ⟨S_, .f32⟩
  | .hbm, ⟨10, _⟩ => ⟨S8x58x58x256, .f32⟩
  | .hbm, ⟨11, _⟩ => ⟨S8x58x58x256, .bf16⟩
  | .hbm, ⟨12, _⟩ => ⟨S256x9x256, .f32⟩
  | .hbm, ⟨13, _⟩ => ⟨S9x256x256, .f32⟩
  | .hbm, ⟨14, _⟩ => ⟨S2304x256, .f32⟩
  | .hbm, ⟨15, _⟩ => ⟨S2304x256, .bf16⟩
  | .hbm, ⟨16, _⟩ => ⟨S256x9x256, .f32⟩
  | .hbm, ⟨17, _⟩ => ⟨S9x256x256, .f32⟩
  | .hbm, ⟨18, _⟩ => ⟨S2304x256, .f32⟩
  | .hbm, ⟨19, _⟩ => ⟨S2304x256, .bf16⟩
  | .hbm, ⟨20, _⟩ => ⟨S256x256x9, .f32⟩
  | .hbm, ⟨21, _⟩ => ⟨S256x9x256, .f32⟩
  | .hbm, ⟨22, _⟩ => ⟨S256x2304, .f32⟩
  | .hbm, ⟨23, _⟩ => ⟨S256x2304, .bf16⟩
  | .hbm, ⟨24, _⟩ => ⟨S256x9, .f32⟩
  | .hbm, ⟨25, _⟩ => ⟨S9x256, .f32⟩
  | .hbm, ⟨26, _⟩ => ⟨S1x2304, .f32⟩
  | .hbm, ⟨27, _⟩ => ⟨S1x256, .f32⟩
  | .hbm, ⟨28, _⟩ => ⟨S1x256, .f32⟩
  | .hbm, ⟨29, _⟩ => ⟨S8x56x56x256, .f32⟩
  | .hbm, ⟨30, _⟩ => ⟨S8x3136x256, .f32⟩
  | .local _ .vmem, ⟨0, _⟩ => ⟨S1x58x58x256, .bf16⟩
  | .local _ .vmem, ⟨1, _⟩ => ⟨S1x58x58x256, .bf16⟩
  | .local _ .vmem, ⟨2, _⟩ => ⟨S2304x256, .bf16⟩
  | .local _ .vmem, ⟨3, _⟩ => ⟨S1x256, .f32⟩
  | .local _ .vmem, ⟨4, _⟩ => ⟨S256x2304, .bf16⟩
  | .local _ .vmem, ⟨5, _⟩ => ⟨S1x2304, .f32⟩
  | .local _ .vmem, ⟨6, _⟩ => ⟨S2304x256, .bf16⟩
  | .local _ .vmem, ⟨7, _⟩ => ⟨S1x256, .f32⟩
  | .local _ .vmem, ⟨8, _⟩ => ⟨S1x56x56x256, .f32⟩
  | .local _ .vmem, ⟨9, _⟩ => ⟨S1x56x56x256, .f32⟩
  | .local _ .vmem, ⟨10, _⟩ => ⟨S784x2304, .bf16⟩
  | _, _ => ⟨S8x256x56x56, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_call0_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x58x58x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2304x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x2304 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2304 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2304x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x56x56x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  transposes_S8x256x56x56_S8x56x56x256_0_2_3_1 : S8x256x56x56.Transposes [0, 2, 3, 1] S8x56x56x256
  pads_S8x56x56x256_S8x58x58x256_000_110_110_000 : S8x56x56x256.Pads (![0, 1, 1, 0] : Fin 4 → Nat) ![0, 1, 1, 0] ![0, 0, 0, 0] S8x58x58x256
  h_S_ : 0 < S_.numel
  bitsLt_bf16_f32 : FTy.bits .bf16 < FTy.bits .f32
  shapeCasts_S2304x256_S256x9x256 : S2304x256.ShapeCasts S256x9x256
  transposes_S256x9x256_S9x256x256_1_0_2 : S256x9x256.Transposes [1, 0, 2] S9x256x256
  shapeCasts_S9x256x256_S2304x256 : S9x256x256.ShapeCasts S2304x256
  shapeCasts_S256x2304_S256x256x9 : S256x2304.ShapeCasts S256x256x9
  transposes_S256x256x9_S256x9x256_0_2_1 : S256x256x9.Transposes [0, 2, 1] S256x9x256
  shapeCasts_S256x9x256_S256x2304 : S256x9x256.ShapeCasts S256x2304
  shapeCasts_S2304_S256x9 : S2304.ShapeCasts S256x9
  transposes_S256x9_S9x256_1_0 : S256x9.Transposes [1, 0] S9x256
  shapeCasts_S9x256_S1x2304 : S9x256.ShapeCasts S1x2304
  shapeCasts_S256_S1x256 : S256.ShapeCasts S1x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  inb_S1x2304_S1x2304_0_0 : ∀ a, (![0, 0] : Fin 2 → Nat) a + S1x2304.size a ≤ S1x2304.size a
  h_S1x2304 : 0 < S1x2304.numel
  shapeCasts_S1x2304_S1x2304 : S1x2304.ShapeCasts S1x2304
  inb_S2304x256_S2304x256_0_0 : ∀ a, (![0, 0] : Fin 2 → Nat) a + S2304x256.size a ≤ S2304x256.size a
  h_S2304x256 : 0 < S2304x256.numel
  shapeCasts_S2304x256_S2304x256 : S2304x256.ShapeCasts S2304x256
  inb_S256x2304_S256x2304_0_0 : ∀ a, (![0, 0] : Fin 2 → Nat) a + S256x2304.size a ≤ S256x2304.size a
  h_S256x2304 : 0 < S256x2304.numel
  shapeCasts_S256x2304_S256x2304 : S256x2304.ShapeCasts S256x2304
  inb_S1x58x58x256_S1x14x56x256_0_0_0_0 : ∀ a, (![0, 0, 0, 0] : Fin 4 → Nat) a + S1x14x56x256.size a ≤ S1x58x58x256.size a
  h_S1x14x56x256 : 0 < S1x14x56x256.numel
  shapeCasts_S1x14x56x256_S14x56x256 : S1x14x56x256.ShapeCasts S14x56x256
  shapeCasts_S14x56x256_S784x256 : S14x56x256.ShapeCasts S784x256
  inb_S784x2304_S784x256_0_0 : ∀ a, (![0, 0] : Fin 2 → Nat) a + S784x256.size a ≤ S784x2304.size a
  h_S784x256 : 0 < S784x256.numel
  shapeCasts_S784x256_S784x256 : S784x256.ShapeCasts S784x256
  packedbf16_S784x2304_S784x256_0_0 : (Rect.unit (s := S784x2304) ![0, 0] S784x256.size inb_S784x2304_S784x256_0_0).PackedRows (EltTy.packing .bf16)
  inb_S1x58x58x256_S1x14x56x256_0_0_1_0 : ∀ a, (![0, 0, 1, 0] : Fin 4 → Nat) a + S1x14x56x256.size a ≤ S1x58x58x256.size a
  inb_S784x2304_S784x256_0_256 : ∀ a, (![0, 256] : Fin 2 → Nat) a + S784x256.size a ≤ S784x2304.size a
  packedbf16_S784x2304_S784x256_0_256 : (Rect.unit (s := S784x2304) ![0, 256] S784x256.size inb_S784x2304_S784x256_0_256).PackedRows (EltTy.packing .bf16)
  inb_S1x58x58x256_S1x14x56x256_0_0_2_0 : ∀ a, (![0, 0, 2, 0] : Fin 4 → Nat) a + S1x14x56x256.size a ≤ S1x58x58x256.size a
  inb_S784x2304_S784x256_0_512 : ∀ a, (![0, 512] : Fin 2 → Nat) a + S784x256.size a ≤ S784x2304.size a
  packedbf16_S784x2304_S784x256_0_512 : (Rect.unit (s := S784x2304) ![0, 512] S784x256.size inb_S784x2304_S784x256_0_512).PackedRows (EltTy.packing .bf16)
  inb_S1x58x58x256_S1x14x56x256_0_1_0_0 : ∀ a, (![0, 1, 0, 0] : Fin 4 → Nat) a + S1x14x56x256.size a ≤ S1x58x58x256.size a
  inb_S784x2304_S784x256_0_768 : ∀ a, (![0, 768] : Fin 2 → Nat) a + S784x256.size a ≤ S784x2304.size a
  packedbf16_S784x2304_S784x256_0_768 : (Rect.unit (s := S784x2304) ![0, 768] S784x256.size inb_S784x2304_S784x256_0_768).PackedRows (EltTy.packing .bf16)
  inb_S1x58x58x256_S1x14x56x256_0_1_1_0 : ∀ a, (![0, 1, 1, 0] : Fin 4 → Nat) a + S1x14x56x256.size a ≤ S1x58x58x256.size a
  inb_S784x2304_S784x256_0_1024 : ∀ a, (![0, 1024] : Fin 2 → Nat) a + S784x256.size a ≤ S784x2304.size a
  packedbf16_S784x2304_S784x256_0_1024 : (Rect.unit (s := S784x2304) ![0, 1024] S784x256.size inb_S784x2304_S784x256_0_1024).PackedRows (EltTy.packing .bf16)
  inb_S1x58x58x256_S1x14x56x256_0_1_2_0 : ∀ a, (![0, 1, 2, 0] : Fin 4 → Nat) a + S1x14x56x256.size a ≤ S1x58x58x256.size a
  inb_S784x2304_S784x256_0_1280 : ∀ a, (![0, 1280] : Fin 2 → Nat) a + S784x256.size a ≤ S784x2304.size a
  packedbf16_S784x2304_S784x256_0_1280 : (Rect.unit (s := S784x2304) ![0, 1280] S784x256.size inb_S784x2304_S784x256_0_1280).PackedRows (EltTy.packing .bf16)
  inb_S1x58x58x256_S1x14x56x256_0_2_0_0 : ∀ a, (![0, 2, 0, 0] : Fin 4 → Nat) a + S1x14x56x256.size a ≤ S1x58x58x256.size a
  inb_S784x2304_S784x256_0_1536 : ∀ a, (![0, 1536] : Fin 2 → Nat) a + S784x256.size a ≤ S784x2304.size a
  packedbf16_S784x2304_S784x256_0_1536 : (Rect.unit (s := S784x2304) ![0, 1536] S784x256.size inb_S784x2304_S784x256_0_1536).PackedRows (EltTy.packing .bf16)
  inb_S1x58x58x256_S1x14x56x256_0_2_1_0 : ∀ a, (![0, 2, 1, 0] : Fin 4 → Nat) a + S1x14x56x256.size a ≤ S1x58x58x256.size a
  inb_S784x2304_S784x256_0_1792 : ∀ a, (![0, 1792] : Fin 2 → Nat) a + S784x256.size a ≤ S784x2304.size a
  packedbf16_S784x2304_S784x256_0_1792 : (Rect.unit (s := S784x2304) ![0, 1792] S784x256.size inb_S784x2304_S784x256_0_1792).PackedRows (EltTy.packing .bf16)
  inb_S1x58x58x256_S1x14x56x256_0_2_2_0 : ∀ a, (![0, 2, 2, 0] : Fin 4 → Nat) a + S1x14x56x256.size a ≤ S1x58x58x256.size a
  inb_S784x2304_S784x256_0_2048 : ∀ a, (![0, 2048] : Fin 2 → Nat) a + S784x256.size a ≤ S784x2304.size a
  packedbf16_S784x2304_S784x256_0_2048 : (Rect.unit (s := S784x2304) ![0, 2048] S784x256.size inb_S784x2304_S784x256_0_2048).PackedRows (EltTy.packing .bf16)
  inb_S784x2304_S784x2304_0_0 : ∀ a, (![0, 0] : Fin 2 → Nat) a + S784x2304.size a ≤ S784x2304.size a
  h_S784x2304 : 0 < S784x2304.numel
  broadcasts_S1x256_S784x256 : S1x256.Broadcasts S784x256
  broadcasts_S1x2304_S784x2304 : S1x2304.Broadcasts S784x2304
  shapeCasts_S784x256_S14x56x256 : S784x256.ShapeCasts S14x56x256
  inb_S1x56x56x256_S1x14x56x256_0_0_0_0 : ∀ a, (![0, 0, 0, 0] : Fin 4 → Nat) a + S1x14x56x256.size a ≤ S1x56x56x256.size a
  shapeCasts_S14x56x256_S1x14x56x256 : S14x56x256.ShapeCasts S1x14x56x256
  inb_S1x58x58x256_S1x14x56x256_0_14_0_0 : ∀ a, (![0, 14, 0, 0] : Fin 4 → Nat) a + S1x14x56x256.size a ≤ S1x58x58x256.size a
  inb_S1x58x58x256_S1x14x56x256_0_14_1_0 : ∀ a, (![0, 14, 1, 0] : Fin 4 → Nat) a + S1x14x56x256.size a ≤ S1x58x58x256.size a
  inb_S1x58x58x256_S1x14x56x256_0_14_2_0 : ∀ a, (![0, 14, 2, 0] : Fin 4 → Nat) a + S1x14x56x256.size a ≤ S1x58x58x256.size a
  inb_S1x58x58x256_S1x14x56x256_0_15_0_0 : ∀ a, (![0, 15, 0, 0] : Fin 4 → Nat) a + S1x14x56x256.size a ≤ S1x58x58x256.size a
  inb_S1x58x58x256_S1x14x56x256_0_15_1_0 : ∀ a, (![0, 15, 1, 0] : Fin 4 → Nat) a + S1x14x56x256.size a ≤ S1x58x58x256.size a
  inb_S1x58x58x256_S1x14x56x256_0_15_2_0 : ∀ a, (![0, 15, 2, 0] : Fin 4 → Nat) a + S1x14x56x256.size a ≤ S1x58x58x256.size a
  inb_S1x58x58x256_S1x14x56x256_0_16_0_0 : ∀ a, (![0, 16, 0, 0] : Fin 4 → Nat) a + S1x14x56x256.size a ≤ S1x58x58x256.size a
  inb_S1x58x58x256_S1x14x56x256_0_16_1_0 : ∀ a, (![0, 16, 1, 0] : Fin 4 → Nat) a + S1x14x56x256.size a ≤ S1x58x58x256.size a
  inb_S1x58x58x256_S1x14x56x256_0_16_2_0 : ∀ a, (![0, 16, 2, 0] : Fin 4 → Nat) a + S1x14x56x256.size a ≤ S1x58x58x256.size a
  inb_S1x56x56x256_S1x14x56x256_0_14_0_0 : ∀ a, (![0, 14, 0, 0] : Fin 4 → Nat) a + S1x14x56x256.size a ≤ S1x56x56x256.size a
  inb_S1x58x58x256_S1x14x56x256_0_28_0_0 : ∀ a, (![0, 28, 0, 0] : Fin 4 → Nat) a + S1x14x56x256.size a ≤ S1x58x58x256.size a
  inb_S1x58x58x256_S1x14x56x256_0_28_1_0 : ∀ a, (![0, 28, 1, 0] : Fin 4 → Nat) a + S1x14x56x256.size a ≤ S1x58x58x256.size a
  inb_S1x58x58x256_S1x14x56x256_0_28_2_0 : ∀ a, (![0, 28, 2, 0] : Fin 4 → Nat) a + S1x14x56x256.size a ≤ S1x58x58x256.size a
  inb_S1x58x58x256_S1x14x56x256_0_29_0_0 : ∀ a, (![0, 29, 0, 0] : Fin 4 → Nat) a + S1x14x56x256.size a ≤ S1x58x58x256.size a
  inb_S1x58x58x256_S1x14x56x256_0_29_1_0 : ∀ a, (![0, 29, 1, 0] : Fin 4 → Nat) a + S1x14x56x256.size a ≤ S1x58x58x256.size a
  inb_S1x58x58x256_S1x14x56x256_0_29_2_0 : ∀ a, (![0, 29, 2, 0] : Fin 4 → Nat) a + S1x14x56x256.size a ≤ S1x58x58x256.size a
  inb_S1x58x58x256_S1x14x56x256_0_30_0_0 : ∀ a, (![0, 30, 0, 0] : Fin 4 → Nat) a + S1x14x56x256.size a ≤ S1x58x58x256.size a
  inb_S1x58x58x256_S1x14x56x256_0_30_1_0 : ∀ a, (![0, 30, 1, 0] : Fin 4 → Nat) a + S1x14x56x256.size a ≤ S1x58x58x256.size a
  inb_S1x58x58x256_S1x14x56x256_0_30_2_0 : ∀ a, (![0, 30, 2, 0] : Fin 4 → Nat) a + S1x14x56x256.size a ≤ S1x58x58x256.size a
  inb_S1x56x56x256_S1x14x56x256_0_28_0_0 : ∀ a, (![0, 28, 0, 0] : Fin 4 → Nat) a + S1x14x56x256.size a ≤ S1x56x56x256.size a
  inb_S1x58x58x256_S1x14x56x256_0_42_0_0 : ∀ a, (![0, 42, 0, 0] : Fin 4 → Nat) a + S1x14x56x256.size a ≤ S1x58x58x256.size a
  inb_S1x58x58x256_S1x14x56x256_0_42_1_0 : ∀ a, (![0, 42, 1, 0] : Fin 4 → Nat) a + S1x14x56x256.size a ≤ S1x58x58x256.size a
  inb_S1x58x58x256_S1x14x56x256_0_42_2_0 : ∀ a, (![0, 42, 2, 0] : Fin 4 → Nat) a + S1x14x56x256.size a ≤ S1x58x58x256.size a
  inb_S1x58x58x256_S1x14x56x256_0_43_0_0 : ∀ a, (![0, 43, 0, 0] : Fin 4 → Nat) a + S1x14x56x256.size a ≤ S1x58x58x256.size a
  inb_S1x58x58x256_S1x14x56x256_0_43_1_0 : ∀ a, (![0, 43, 1, 0] : Fin 4 → Nat) a + S1x14x56x256.size a ≤ S1x58x58x256.size a
  inb_S1x58x58x256_S1x14x56x256_0_43_2_0 : ∀ a, (![0, 43, 2, 0] : Fin 4 → Nat) a + S1x14x56x256.size a ≤ S1x58x58x256.size a
  inb_S1x58x58x256_S1x14x56x256_0_44_0_0 : ∀ a, (![0, 44, 0, 0] : Fin 4 → Nat) a + S1x14x56x256.size a ≤ S1x58x58x256.size a
  inb_S1x58x58x256_S1x14x56x256_0_44_1_0 : ∀ a, (![0, 44, 1, 0] : Fin 4 → Nat) a + S1x14x56x256.size a ≤ S1x58x58x256.size a
  inb_S1x58x58x256_S1x14x56x256_0_44_2_0 : ∀ a, (![0, 44, 2, 0] : Fin 4 → Nat) a + S1x14x56x256.size a ≤ S1x58x58x256.size a
  inb_S1x56x56x256_S1x14x56x256_0_42_0_0 : ∀ a, (![0, 42, 0, 0] : Fin 4 → Nat) a + S1x14x56x256.size a ≤ S1x56x56x256.size a
  shapeCasts_S8x56x56x256_S8x3136x256 : S8x56x56x256.ShapeCasts S8x3136x256
  dot_S784x2304_S2304x256_S784x256_1_0_0_1_n_n_wf : DotDims.WF S784x2304 S2304x256 S784x256 [1] [0] [0] [1] [] []
  dot_S784x256_S256x2304_S784x2304_1_0_0_1_n_n_wf : DotDims.WF S784x256 S256x2304 S784x2304 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x58x58x256.size a ≤ S8x58x58x256.size a
  hwx0_0 : ∀ i : grid0.Coords, EltTy.bits .bf16 = 32 ∨ (Rect.block (s := S8x58x58x256) S1x58x58x256.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2304x256.size a ≤ S2304x256.size a
  hwx0_1 : ∀ i : grid0.Coords, EltTy.bits .bf16 = 32 ∨ (Rect.block (s := S2304x256) S2304x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x2304.size a ≤ S256x2304.size a
  hwx0_3 : ∀ i : grid0.Coords, EltTy.bits .bf16 = 32 ∨ (Rect.block (s := S256x2304) S256x2304.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x2304.size a ≤ S1x2304.size a
  hwx0_4 : ∀ i : grid0.Coords, EltTy.bits .f32 = 32 ∨ (Rect.block (s := S1x2304) S1x2304.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S2304x256.size a ≤ S2304x256.size a
  hwx0_5 : ∀ i : grid0.Coords, EltTy.bits .bf16 = 32 ∨ (Rect.block (s := S2304x256) S2304x256.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x56x56x256.size a ≤ S8x56x56x256.size a
  hwx0_7 : ∀ i : grid0.Coords, EltTy.bits .f32 = 32 ∨ (Rect.block (s := S8x56x56x256) S1x56x56x256.size (cc0_transform_7 i) (hinb0_7 i)).WholeWords (EltTy.packing .f32)

variable [Facts₀]

def dot_S784x2304_S2304x256_S784x256_1_0_0_1_n_n : DotDims S784x2304 S2304x256 S784x256 where
  lhsContracting := [1]
  rhsContracting := [0]
  lhsNonContracting := [0]
  rhsNonContracting := [1]
  lhsBatch := []
  rhsBatch := []
  wf := dot_S784x2304_S2304x256_S784x256_1_0_0_1_n_n_wf
def dot_S784x256_S256x2304_S784x2304_1_0_0_1_n_n : DotDims S784x256 S256x2304 S784x2304 where
  lhsContracting := [1]
  rhsContracting := [0]
  lhsNonContracting := [0]
  rhsNonContracting := [1]
  lhsBatch := []
  rhsBatch := []
  wf := dot_S784x256_S256x2304_S784x2304_1_0_0_1_n_n_wf

abbrev win0_0 : Pipeline.Window sig grid0 :=
  Pipeline.Window.ofSpec (Memref.whole main_v2) S1x58x58x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S2304x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v18) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S256x2304.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v17) S1x2304.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v10) S2304x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v19) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v20) S1x56x56x256.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S8x256x56x56 : Shape := ⟨4, ![8, 256, 56, 56]⟩
abbrev S2304x256 : Shape := ⟨2, ![2304, 256]⟩
abbrev S256 : Shape := ⟨1, ![256]⟩
abbrev S256x2304 : Shape := ⟨2, ![256, 2304]⟩
abbrev S2304 : Shape := ⟨1, ![2304]⟩
abbrev S_ : Shape := ⟨0, ![]⟩
abbrev S8x256x58x58 : Shape := ⟨4, ![8, 256, 58, 58]⟩
abbrev S8x256x1x56x56 : Shape := ⟨5, ![8, 256, 1, 56, 56]⟩
abbrev S8x256x9x56x56 : Shape := ⟨5, ![8, 256, 9, 56, 56]⟩
abbrev S8x2304x3136 : Shape := ⟨3, ![8, 2304, 3136]⟩
abbrev S8x3136x2304 : Shape := ⟨3, ![8, 3136, 2304]⟩
abbrev S8x3136x256 : Shape := ⟨3, ![8, 3136, 256]⟩
abbrev S1x1x256 : Shape := ⟨3, ![1, 1, 256]⟩
abbrev S1x1x2304 : Shape := ⟨3, ![1, 1, 2304]⟩

abbrev nBuf : Space → Nat
  | .hbm => 55
  | .vmem => 0
  | .smem => 0
  | _ => 0

abbrev bufTy : (tb : Table) → Fin (tcTables nBuf tb) → BufTy
  | .hbm, ⟨0, _⟩ => ⟨S8x256x56x56, .f32⟩
  | .hbm, ⟨1, _⟩ => ⟨S2304x256, .f32⟩
  | .hbm, ⟨2, _⟩ => ⟨S256, .f32⟩
  | .hbm, ⟨3, _⟩ => ⟨S256x2304, .f32⟩
  | .hbm, ⟨4, _⟩ => ⟨S2304, .f32⟩
  | .hbm, ⟨5, _⟩ => ⟨S2304x256, .f32⟩
  | .hbm, ⟨6, _⟩ => ⟨S256, .f32⟩
  | .hbm, ⟨7, _⟩ => ⟨S_, .i32⟩
  | .hbm, ⟨8, _⟩ => ⟨S_, .f32⟩
  | .hbm, ⟨9, _⟩ => ⟨S8x256x58x58, .f32⟩
  | .hbm, ⟨10, _⟩ => ⟨S8x256x56x56, .f32⟩
  | .hbm, ⟨11, _⟩ => ⟨S8x256x56x56, .f32⟩
  | .hbm, ⟨12, _⟩ => ⟨S8x256x56x56, .f32⟩
  | .hbm, ⟨13, _⟩ => ⟨S8x256x56x56, .f32⟩
  | .hbm, ⟨14, _⟩ => ⟨S8x256x56x56, .f32⟩
  | .hbm, ⟨15, _⟩ => ⟨S8x256x56x56, .f32⟩
  | .hbm, ⟨16, _⟩ => ⟨S8x256x56x56, .f32⟩
  | .hbm, ⟨17, _⟩ => ⟨S8x256x56x56, .f32⟩
  | .hbm, ⟨18, _⟩ => ⟨S8x256x56x56, .f32⟩
  | .hbm, ⟨19, _⟩ => ⟨S8x256x1x56x56, .f32⟩
  | .hbm, ⟨20, _⟩ => ⟨S8x256x1x56x56, .f32⟩
  | .hbm, ⟨21, _⟩ => ⟨S8x256x1x56x56, .f32⟩
  | .hbm, ⟨22, _⟩ => ⟨S8x256x1x56x56, .f32⟩
  | .hbm, ⟨23, _⟩ => ⟨S8x256x1x56x56, .f32⟩
  | .hbm, ⟨24, _⟩ => ⟨S8x256x1x56x56, .f32⟩
  | .hbm, ⟨25, _⟩ => ⟨S8x256x1x56x56, .f32⟩
  | .hbm, ⟨26, _⟩ => ⟨S8x256x1x56x56, .f32⟩
  | .hbm, ⟨27, _⟩ => ⟨S8x256x1x56x56, .f32⟩
  | .hbm, ⟨28, _⟩ => ⟨S8x256x9x56x56, .f32⟩
  | .hbm, ⟨29, _⟩ => ⟨S8x2304x3136, .f32⟩
  | .hbm, ⟨30, _⟩ => ⟨S8x3136x2304, .f32⟩
  | .hbm, ⟨31, _⟩ => ⟨S8x3136x256, .f32⟩
  | .hbm, ⟨32, _⟩ => ⟨S1x1x256, .f32⟩
  | .hbm, ⟨33, _⟩ => ⟨S8x3136x256, .f32⟩
  | .hbm, ⟨34, _⟩ => ⟨S8x3136x256, .f32⟩
  | .hbm, ⟨35, _⟩ => ⟨S_, .f32⟩
  | .hbm, ⟨36, _⟩ => ⟨S8x3136x256, .f32⟩
  | .hbm, ⟨37, _⟩ => ⟨S8x3136x256, .f32⟩
  | .hbm, ⟨38, _⟩ => ⟨S8x3136x2304, .f32⟩
  | .hbm, ⟨39, _⟩ => ⟨S1x1x2304, .f32⟩
  | .hbm, ⟨40, _⟩ => ⟨S8x3136x2304, .f32⟩
  | .hbm, ⟨41, _⟩ => ⟨S8x3136x2304, .f32⟩
  | .hbm, ⟨42, _⟩ => ⟨S8x3136x2304, .f32⟩
  | .hbm, ⟨43, _⟩ => ⟨S8x3136x2304, .f32⟩
  | .hbm, ⟨44, _⟩ => ⟨S_, .f32⟩
  | .hbm, ⟨45, _⟩ => ⟨S8x3136x2304, .f32⟩
  | .hbm, ⟨46, _⟩ => ⟨S8x3136x2304, .f32⟩
  | .hbm, ⟨47, _⟩ => ⟨S_, .f32⟩
  | .hbm, ⟨48, _⟩ => ⟨S8x3136x2304, .f32⟩
  | .hbm, ⟨49, _⟩ => ⟨S8x3136x2304, .f32⟩
  | .hbm, ⟨50, _⟩ => ⟨S8x3136x2304, .f32⟩
  | .hbm, ⟨51, _⟩ => ⟨S8x3136x256, .f32⟩
  | .hbm, ⟨52, _⟩ => ⟨S1x1x256, .f32⟩
  | .hbm, ⟨53, _⟩ => ⟨S8x3136x256, .f32⟩
  | .hbm, ⟨54, _⟩ => ⟨S8x3136x256, .f32⟩
  | _, _ => ⟨S8x256x56x56, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_call0_v0 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_call1_cst : Ref sig .tc := ⟨.hbm, 35, rfl⟩
abbrev main_call1_v0 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst : Ref sig .tc := ⟨.hbm, 44, rfl⟩
abbrev main_v33 : Ref sig .tc := ⟨.hbm, 45, rfl⟩
abbrev main_v34 : Ref sig .tc := ⟨.hbm, 46, rfl⟩
abbrev main_cst_0 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩

abbrev nD : Nat := 1
abbrev τ : Topo := Topo.v7x

variable {F : FTy → Type} [FloatOps F]

class Facts₀ : Prop where
  pads_S8x256x56x56_S8x256x58x58_000_000_110_110 : S8x256x56x56.Pads (![0, 0, 1, 1] : Fin 4 → Nat) ![0, 0, 1, 1] ![0, 0, 0, 0] S8x256x58x58
  h_S_ : 0 < S_.numel
  slices_S8x256x58x58_S8x256x56x56_0_0_0_0 : S8x256x58x58.Slices ![0, 0, 0, 0] S8x256x56x56
  slices_S8x256x58x58_S8x256x56x56_0_0_0_1 : S8x256x58x58.Slices ![0, 0, 0, 1] S8x256x56x56
  slices_S8x256x58x58_S8x256x56x56_0_0_0_2 : S8x256x58x58.Slices ![0, 0, 0, 2] S8x256x56x56
  slices_S8x256x58x58_S8x256x56x56_0_0_1_0 : S8x256x58x58.Slices ![0, 0, 1, 0] S8x256x56x56
  slices_S8x256x58x58_S8x256x56x56_0_0_1_1 : S8x256x58x58.Slices ![0, 0, 1, 1] S8x256x56x56
  slices_S8x256x58x58_S8x256x56x56_0_0_1_2 : S8x256x58x58.Slices ![0, 0, 1, 2] S8x256x56x56
  slices_S8x256x58x58_S8x256x56x56_0_0_2_0 : S8x256x58x58.Slices ![0, 0, 2, 0] S8x256x56x56
  slices_S8x256x58x58_S8x256x56x56_0_0_2_1 : S8x256x58x58.Slices ![0, 0, 2, 1] S8x256x56x56
  slices_S8x256x58x58_S8x256x56x56_0_0_2_2 : S8x256x58x58.Slices ![0, 0, 2, 2] S8x256x56x56
  bcast_S8x256x56x56_S8x256x1x56x56_0_1_3_4 : S8x256x56x56.BroadcastsInDim S8x256x1x56x56 (![0, 1, 3, 4] : Fin 4 → Fin S8x256x1x56x56.rank)
  concatenates_S8x256x1x56x56_S8x256x1x56x56_S8x256x1x56x56_S8x256x1x56x56_S8x256x1x56x56_S8x256x1x56x56_S8x256x1x56x56_S8x256x1x56x56_S8x256x1x56x56_S8x256x9x56x56_d2 : Shape.Concatenates [S8x256x1x56x56, S8x256x1x56x56, S8x256x1x56x56, S8x256x1x56x56, S8x256x1x56x56, S8x256x1x56x56, S8x256x1x56x56, S8x256x1x56x56, S8x256x1x56x56] S8x256x9x56x56 2
  shapeCasts_S8x256x9x56x56_S8x2304x3136 : S8x256x9x56x56.ShapeCasts S8x2304x3136
  transposes_S8x2304x3136_S8x3136x2304_0_2_1 : S8x2304x3136.Transposes [0, 2, 1] S8x3136x2304
  bcast_S256_S1x1x256_2 : S256.BroadcastsInDim S1x1x256 (![2] : Fin 1 → Fin S1x1x256.rank)
  bcast_S1x1x256_S8x3136x256_0_1_2 : S1x1x256.BroadcastsInDim S8x3136x256 (![0, 1, 2] : Fin 3 → Fin S8x3136x256.rank)
  bcast_S_S8x3136x256 : S_.BroadcastsInDim S8x3136x256 (![] : Fin 0 → Fin S8x3136x256.rank)
  bcast_S2304_S1x1x2304_2 : S2304.BroadcastsInDim S1x1x2304 (![2] : Fin 1 → Fin S1x1x2304.rank)
  bcast_S1x1x2304_S8x3136x2304_0_1_2 : S1x1x2304.BroadcastsInDim S8x3136x2304 (![0, 1, 2] : Fin 3 → Fin S8x3136x2304.rank)
  bcast_S_S8x3136x2304 : S_.BroadcastsInDim S8x3136x2304 (![] : Fin 0 → Fin S8x3136x2304.rank)
  dot_S8x3136x2304_S2304x256_S8x3136x256_2_0_01_1_n_n_wf : DotDims.WF S8x3136x2304 S2304x256 S8x3136x256 [2] [0] [0, 1] [1] [] []
  dot_S8x3136x256_S256x2304_S8x3136x2304_2_0_01_1_n_n_wf : DotDims.WF S8x3136x256 S256x2304 S8x3136x2304 [2] [0] [0, 1] [1] [] []

variable [Facts₀]

def dot_S8x3136x2304_S2304x256_S8x3136x256_2_0_01_1_n_n : DotDims S8x3136x2304 S2304x256 S8x3136x256 where
  lhsContracting := [2]
  rhsContracting := [0]
  lhsNonContracting := [0, 1]
  rhsNonContracting := [1]
  lhsBatch := []
  rhsBatch := []
  wf := dot_S8x3136x2304_S2304x256_S8x3136x256_2_0_01_1_n_n_wf
def dot_S8x3136x256_S256x2304_S8x3136x2304_2_0_01_1_n_n : DotDims S8x3136x256 S256x2304 S8x3136x2304 where
  lhsContracting := [2]
  rhsContracting := [0]
  lhsNonContracting := [0, 1]
  rhsNonContracting := [1]
  lhsBatch := []
  rhsBatch := []
  wf := dot_S8x3136x256_S256x2304_S8x3136x2304_2_0_01_1_n_n_wf

class Facts : Prop extends Facts₀ where

variable [Facts]
-- ==== Proof.Spec.lean ====
/-
  The function both programs compute, index by index, on the extended reals.

  Every output row belongs to one pixel (b, h, w) of the zero-padded input.  Its 3x3 patch is a vector `a` of
  2304 = 256 * 9 numbers (channel ch, window offset off = 3 * ki + kj: the padded input at row h + ki, column
  w + kj of channel ch).  One gated layer maps the patch to 256 outputs:
      hid c  = max (sum_k a k * W1 k c + b1 c) 0
      gate k = logistic (sum_c hid c * W2 c k + b2 k)
      out o  = sum_k (a k * gate k) * W3 k o + b3 o.
  The reference numbers the patch entries channel-major (d = ch * 9 + off), the kernel offset-major
  (k = off * 256 + ch) with the rows of W1, W3 and the columns of W2, b2 permuted to match.  The layer only
  sums over the patch axis, and a finite sum does not depend on the order of its terms, so the two numberings
  give the same output (`layer_reindex`); no term has to be finite for that.
-/
import Idealize.ShloMosaic.PureOps.Ideal
import Idealize.ShloMosaic.Lib.ValueIdx

noncomputable section

namespace Cert.PatchGate

open Idealize.ShloMosaic

/-- The zero-padded input at row `r`, column `w` of the 58 x 58 padded plane (one ring of zeros around the
    56 x 56 image), rows and columns as naturals so that patch arithmetic stays in ℕ. -/
def padded (x : Fin 8 → Fin 256 → Fin 56 → Fin 56 → EReal) (b : Fin 8) (ch : Fin 256) (r w : ℕ) : EReal :=
  if h : (1 ≤ r ∧ r ≤ 56) ∧ (1 ≤ w ∧ w ≤ 56) then x b ch ⟨r - 1, by omega⟩ ⟨w - 1, by omega⟩ else 0

theorem padded_congr (x : Fin 8 → Fin 256 → Fin 56 → Fin 56 → EReal) (b : Fin 8) {ch ch' : Fin 256} {r r' w w' : ℕ}
    (hc : ch.val = ch'.val) (hr : r = r') (hw : w = w') : padded x b ch r w = padded x b ch' r' w' := by
  obtain rfl := Fin.ext hc; subst hr; subst hw; rfl

/-- The gated layer on one patch `a` over an abstract patch axis `K` and channel axis `C`. -/
def layer {K C : Type} [Fintype K] [Fintype C] (a : K → EReal) (w1 : K → C → EReal) (b1 : C → EReal)
    (w2 : C → K → EReal) (b2 : K → EReal) (w3 : K → C → EReal) (b3 : C → EReal) (o : C) : EReal :=
  ∑ k, (a k * Ideal.logistic (∑ c, max (∑ k', a k' * w1 k' c + b1 c) 0 * w2 c k + b2 k)) * w3 k o + b3 o

/-- Renumbering the patch axis by a bijection, with every patch-indexed operand renumbered the same way,
    does not change the layer: each of its three sums over the patch axis is a sum over a finite type. -/
theorem layer_reindex {K K' C : Type} [Fintype K] [Fintype K'] [Fintype C] (e : K' ≃ K) (a : K → EReal)
    (w1 : K → C → EReal) (b1 : C → EReal) (w2 : C → K → EReal) (b2 : K → EReal) (w3 : K → C → EReal)
    (b3 : C → EReal) (o : C) :
    layer (fun k => a (e k)) (fun k c => w1 (e k) c) b1 (fun c k => w2 c (e k)) (fun k => b2 (e k))
      (fun k c => w3 (e k) c) b3 o = layer a w1 b1 w2 b2 w3 b3 o := by
  unfold layer
  have h1 : ∀ c, (∑ k' : K', a (e k') * w1 (e k') c) = ∑ k' : K, a k' * w1 k' c := fun c =>
    Equiv.sum_comp e (fun k' => a k' * w1 k' c)
  simp only [h1]
  exact congrArg (· + b3 o) (Equiv.sum_comp e (fun k =>
    (a k * Ideal.logistic (∑ c, max (∑ k', a k' * w1 k' c + b1 c) 0 * w2 c k + b2 k)) * w3 k o))

/-- The patch of pixel `l = 56 * h + w` of image `b`, numbered channel-major: entry `d = 9 * ch + off`. -/
def patchChannelMajor (x : Fin 8 → Fin 256 → Fin 56 → Fin 56 → EReal) (b : Fin 8) (l : Fin 3136) (d : Fin 2304) : EReal :=
  padded x b ⟨d.val / 9, by have := d.isLt; omega⟩ (l.val / 56 + d.val % 9 / 3) (l.val % 56 + d.val % 9 % 3)

/-- The same patch numbered offset-major: entry `k = 256 * off + ch`. -/
def patchOffsetMajor (x : Fin 8 → Fin 256 → Fin 56 → Fin 56 → EReal) (b : Fin 8) (h w : ℕ) (k : Fin 2304) : EReal :=
  padded x b ⟨k.val % 256, Nat.mod_lt _ (by norm_num)⟩ (h + k.val / 256 / 3) (w + k.val / 256 % 3)

/-- Offset-major position `256 * off + ch` to channel-major position `9 * ch + off`. -/
def toChannelMajor : Fin 2304 ≃ Fin 2304 where
  toFun k := ⟨k.val % 256 * 9 + k.val / 256, by have := k.isLt; omega⟩
  invFun d := ⟨d.val % 9 * 256 + d.val / 9, by have := d.isLt; omega⟩
  left_inv k := Fin.ext (by have := k.isLt; show (k.val % 256 * 9 + k.val / 256) % 9 * 256 + (k.val % 256 * 9 + k.val / 256) / 9 = k.val; omega)
  right_inv d := Fin.ext (by have := d.isLt; show (d.val % 9 * 256 + d.val / 9) % 256 * 9 + (d.val % 9 * 256 + d.val / 9) / 256 = d.val; omega)

theorem toChannelMajor_val (k : Fin 2304) : (toChannelMajor k).val = k.val % 256 * 9 + k.val / 256 := rfl

/-- The two numberings name the same patch entries. -/
theorem patch_numberings (x : Fin 8 → Fin 256 → Fin 56 → Fin 56 → EReal) (b : Fin 8) (l : Fin 3136) (k : Fin 2304) :
    patchChannelMajor x b l (toChannelMajor k) = patchOffsetMajor x b (l.val / 56) (l.val % 56) k := by
  have hk := k.isLt
  have e1 : (toChannelMajor k).val / 9 = k.val % 256 := by rw [toChannelMajor_val]; omega
  have e2 : (toChannelMajor k).val % 9 = k.val / 256 := by rw [toChannelMajor_val]; omega
  exact padded_congr x b e1 (by rw [e2]) (by rw [e2])

/-- What both programs compute: output channel `o` of pixel `l` of image `b`. -/
def result (x : Fin 8 → Fin 256 → Fin 56 → Fin 56 → EReal) (W1 : Fin 2304 → Fin 256 → EReal) (b1 : Fin 256 → EReal)
    (W2 : Fin 256 → Fin 2304 → EReal) (b2 : Fin 2304 → EReal) (W3 : Fin 2304 → Fin 256 → EReal) (b3 : Fin 256 → EReal)
    (b : Fin 8) (l : Fin 3136) (o : Fin 256) : EReal :=
  layer (patchChannelMajor x b l) W1 b1 W2 b2 W3 b3 o

/-- The offset-major form of the same number, with the weights permuted as the kernel's wrapper permutes them. -/
theorem result_offsetMajor (x : Fin 8 → Fin 256 → Fin 56 → Fin 56 → EReal) (W1 : Fin 2304 → Fin 256 → EReal)
    (b1 : Fin 256 → EReal) (W2 : Fin 256 → Fin 2304 → EReal) (b2 : Fin 2304 → EReal) (W3 : Fin 2304 → Fin 256 → EReal)
    (b3 : Fin 256 → EReal) (b : Fin 8) (l : Fin 3136) (o : Fin 256) :
    layer (patchOffsetMajor x b (l.val / 56) (l.val % 56)) (fun k c => W1 (toChannelMajor k) c) b1
      (fun c k => W2 c (toChannelMajor k)) (fun k => b2 (toChannelMajor k)) (fun k c => W3 (toChannelMajor k) c) b3 o
    = result x W1 b1 W2 b2 W3 b3 b l o := by
  unfold result
  rw [← layer_reindex toChannelMajor (patchChannelMajor x b l) W1 b1 W2 b2 W3 b3 o]
  simp only [patch_numberings]

end Cert.PatchGate

end
-- ==== Proof.RefIsLayer.lean ====
/-
  The reference program, read at one output element, is the specification's gated layer on the channel-major
  patch.

  The reference pads the image with one ring of zeros, takes the nine 56 x 56 views of the padded plane shifted by
  (ki, kj) in {0, 1, 2}^2, stacks them along a new axis (position off = 3 * ki + kj), and flattens (channel, off) to
  the patch axis d = 9 * ch + off and (row, column) to the pixel axis l = 56 * r + w.  So entry d of pixel l's patch
  is the padded image at channel d / 9, row l / 56 + d % 9 / 3, column l % 56 + d % 9 % 3.  The three contractions
  are finite sums over the patch axis or the channel axis, the rectifier is the maximum with zero, and
  1 / (1 + exp (-z)) is the logistic function of z.
-/
import proofs.«101146_j12000138625349_2_alg».proof.Proof.Gen.ReferenceIdeal.Read
import proofs.«101146_j12000138625349_2_alg».proof.Proof.Spec
import Idealize.ShloMosaic.Lib.KernelVsHost
import Idealize.ShloMosaic.Lib.IdealHost

noncomputable section

namespace Cert.ReferenceIdeal.RefValue

open Cert.ReferenceIdeal Cert.ReferenceIdeal.Gen Cert.ReferenceIdeal.Read Idealize.ShloMosaic Idealize.ShloMosaic.ValueIdx

/-- The input array as a function of its four coordinates. -/
abbrev img (x0 : (⟨S8x256x56x56, .f32⟩ : BufTy).Contents (Elt Ideal)) : Fin 8 → Fin 256 → Fin 56 → Fin 56 → EReal :=
  fun b ch r w => x0 (ix4 b ch r w)

/-- The padding value: the integer zero converted to a float is the extended real zero. -/
theorem pad_value : val_main_call0_v0 (F := Ideal) (Shape.Idx.first h_S_) = 0 := sitofp_zero (φ := .f32)

/-- The padded array at row `r`, column `w` of the 58 x 58 plane is the specification's `padded`. -/
theorem v0_read (x0 : (⟨S8x256x56x56, .f32⟩ : BufTy).Contents (Elt Ideal)) (b : Fin 8) (ch : Fin 256) (r w : Fin 58) :
    val_main_v0 (F := Ideal) x0 (ix4 b ch r w) = Cert.PatchGate.padded (img x0) b ch r.val w.val := by
  have hr := r.isLt
  have hw := w.isLt
  unfold Cert.PatchGate.padded
  by_cases h : (1 ≤ r.val ∧ r.val ≤ 56) ∧ (1 ≤ w.val ∧ w.val ≤ 56)
  · rw [dif_pos h]
    unfold val_main_v0
    exact pad_apply_of_inside _ _ _ x0 _ pads_S8x256x56x56_S8x256x58x58_000_000_110_110 h_S_ (ix4 b ch r w)
      (ix4 b ch ⟨r.val - 1, by omega⟩ ⟨w.val - 1, by omega⟩) (fun a => match a with
        | ⟨0, _⟩ => by show b.val = 0 + b.val * (0 + 1); omega
        | ⟨1, _⟩ => by show ch.val = 0 + ch.val * (0 + 1); omega
        | ⟨2, _⟩ => by show r.val = 1 + (r.val - 1) * (0 + 1); omega
        | ⟨3, _⟩ => by show w.val = 1 + (w.val - 1) * (0 + 1); omega)
  · rw [dif_neg h]
    unfold val_main_v0
    by_cases hr' : 1 ≤ r.val ∧ r.val ≤ 56
    · have hw' : ¬(1 ≤ w.val ∧ w.val ≤ 56) := fun hw' => h ⟨hr', hw'⟩
      rw [pad_apply_of_not_inside _ _ _ x0 _ pads_S8x256x56x56_S8x256x58x58_000_000_110_110 h_S_ (ix4 b ch r w) ⟨3, by decide⟩
        (by show ¬(1 ≤ w.val ∧ (w.val - 1) % (0 + 1) = 0 ∧ (w.val - 1) / (0 + 1) < 56); omega)]
      exact pad_value
    · rw [pad_apply_of_not_inside _ _ _ x0 _ pads_S8x256x56x56_S8x256x58x58_000_000_110_110 h_S_ (ix4 b ch r w) ⟨2, by decide⟩
        (by show ¬(1 ≤ r.val ∧ (r.val - 1) % (0 + 1) = 0 ∧ (r.val - 1) / (0 + 1) < 56); omega)]
      exact pad_value

/-- The padded array at an index whose coordinates are image `b`, channel `ch`, row `r + ki`, column `w + kj`. -/
theorem shifted_read (x0 : (⟨S8x256x56x56, .f32⟩ : BufTy).Contents (Elt Ideal)) (b : Fin 8) (ch : Fin 256) (r w : Fin 56)
    (ki kj : ℕ) (hki : ki < 3) (hkj : kj < 3) (j : S8x256x58x58.Idx) (h0 : (j 0).val = b.val) (h1 : (j 1).val = ch.val)
    (h2 : (j 2).val = r.val + ki) (h3 : (j 3).val = w.val + kj) :
    val_main_v0 (F := Ideal) x0 j = Cert.PatchGate.padded (img x0) b ch (r.val + ki) (w.val + kj) := by
  have hr := r.isLt
  have hw := w.isLt
  have e : j = ix4 b ch (⟨r.val + ki, by omega⟩ : Fin 58) (⟨w.val + kj, by omega⟩ : Fin 58) := funext fun a => Fin.ext (by
    match a with
    | ⟨0, _⟩ => exact h0
    | ⟨1, _⟩ => exact h1
    | ⟨2, _⟩ => exact h2
    | ⟨3, _⟩ => exact h3)
  rw [e]
  exact v0_read x0 b ch _ _

/-! The nine shifted views, each with the unit axis the stack adds: view `3 * ki + kj` reads the padded array at
    row `r + ki`, column `w + kj`. -/

theorem view0 (x0 : (⟨S8x256x56x56, .f32⟩ : BufTy).Contents (Elt Ideal)) (b : Fin 8) (ch : Fin 256) (z : Fin 1) (r w : Fin 56) :
    val_main_v10 (F := Ideal) x0 (ix5 b ch z r w) = Cert.PatchGate.padded (img x0) b ch (r.val + 0) (w.val + 0) := by
  rw [val_main_v10_apply, val_main_v1_apply]
  exact shifted_read x0 b ch r w 0 0 (by omega) (by omega) _ rfl rfl rfl rfl

theorem view1 (x0 : (⟨S8x256x56x56, .f32⟩ : BufTy).Contents (Elt Ideal)) (b : Fin 8) (ch : Fin 256) (z : Fin 1) (r w : Fin 56) :
    val_main_v11 (F := Ideal) x0 (ix5 b ch z r w) = Cert.PatchGate.padded (img x0) b ch (r.val + 0) (w.val + 1) := by
  rw [val_main_v11_apply, val_main_v2_apply]
  exact shifted_read x0 b ch r w 0 1 (by omega) (by omega) _ rfl rfl rfl (Nat.add_comm 1 w.val)

theorem view2 (x0 : (⟨S8x256x56x56, .f32⟩ : BufTy).Contents (Elt Ideal)) (b : Fin 8) (ch : Fin 256) (z : Fin 1) (r w : Fin 56) :
    val_main_v12 (F := Ideal) x0 (ix5 b ch z r w) = Cert.PatchGate.padded (img x0) b ch (r.val + 0) (w.val + 2) := by
  rw [val_main_v12_apply, val_main_v3_apply]
  exact shifted_read x0 b ch r w 0 2 (by omega) (by omega) _ rfl rfl rfl (Nat.add_comm 2 w.val)

theorem view3 (x0 : (⟨S8x256x56x56, .f32⟩ : BufTy).Contents (Elt Ideal)) (b : Fin 8) (ch : Fin 256) (z : Fin 1) (r w : Fin 56) :
    val_main_v13 (F := Ideal) x0 (ix5 b ch z r w) = Cert.PatchGate.padded (img x0) b ch (r.val + 1) (w.val + 0) := by
  rw [val_main_v13_apply, val_main_v4_apply]
  exact shifted_read x0 b ch r w 1 0 (by omega) (by omega) _ rfl rfl (Nat.add_comm 1 r.val) rfl

theorem view4 (x0 : (⟨S8x256x56x56, .f32⟩ : BufTy).Contents (Elt Ideal)) (b : Fin 8) (ch : Fin 256) (z : Fin 1) (r w : Fin 56) :
    val_main_v14 (F := Ideal) x0 (ix5 b ch z r w) = Cert.PatchGate.padded (img x0) b ch (r.val + 1) (w.val + 1) := by
  rw [val_main_v14_apply, val_main_v5_apply]
  exact shifted_read x0 b ch r w 1 1 (by omega) (by omega) _ rfl rfl (Nat.add_comm 1 r.val) (Nat.add_comm 1 w.val)

theorem view5 (x0 : (⟨S8x256x56x56, .f32⟩ : BufTy).Contents (Elt Ideal)) (b : Fin 8) (ch : Fin 256) (z : Fin 1) (r w : Fin 56) :
    val_main_v15 (F := Ideal) x0 (ix5 b ch z r w) = Cert.PatchGate.padded (img x0) b ch (r.val + 1) (w.val + 2) := by
  rw [val_main_v15_apply, val_main_v6_apply]
  exact shifted_read x0 b ch r w 1 2 (by omega) (by omega) _ rfl rfl (Nat.add_comm 1 r.val) (Nat.add_comm 2 w.val)

theorem view6 (x0 : (⟨S8x256x56x56, .f32⟩ : BufTy).Contents (Elt Ideal)) (b : Fin 8) (ch : Fin 256) (z : Fin 1) (r w : Fin 56) :
    val_main_v16 (F := Ideal) x0 (ix5 b ch z r w) = Cert.PatchGate.padded (img x0) b ch (r.val + 2) (w.val + 0) := by
  rw [val_main_v16_apply, val_main_v7_apply]
  exact shifted_read x0 b ch r w 2 0 (by omega) (by omega) _ rfl rfl (Nat.add_comm 2 r.val) rfl

theorem view7 (x0 : (⟨S8x256x56x56, .f32⟩ : BufTy).Contents (Elt Ideal)) (b : Fin 8) (ch : Fin 256) (z : Fin 1) (r w : Fin 56) :
    val_main_v17 (F := Ideal) x0 (ix5 b ch z r w) = Cert.PatchGate.padded (img x0) b ch (r.val + 2) (w.val + 1) := by
  rw [val_main_v17_apply, val_main_v8_apply]
  exact shifted_read x0 b ch r w 2 1 (by omega) (by omega) _ rfl rfl (Nat.add_comm 2 r.val) (Nat.add_comm 1 w.val)

theorem view8 (x0 : (⟨S8x256x56x56, .f32⟩ : BufTy).Contents (Elt Ideal)) (b : Fin 8) (ch : Fin 256) (z : Fin 1) (r w : Fin 56) :
    val_main_v18 (F := Ideal) x0 (ix5 b ch z r w) = Cert.PatchGate.padded (img x0) b ch (r.val + 2) (w.val + 2) := by
  rw [val_main_v18_apply, val_main_v9_apply]
  exact shifted_read x0 b ch r w 2 2 (by omega) (by omega) _ rfl rfl (Nat.add_comm 2 r.val) (Nat.add_comm 2 w.val)

/-- The stack of the nine views along the new axis, at position `off`: view `off`, so the padded array at row
    `r + off / 3`, column `w + off % 3`. -/
theorem v19_read (x0 : (⟨S8x256x56x56, .f32⟩ : BufTy).Contents (Elt Ideal)) (b : Fin 8) (ch : Fin 256) (off : Fin 9) (r w : Fin 56) :
    val_main_v19 (F := Ideal) x0 (ix5 b ch off r w)
      = Cert.PatchGate.padded (img x0) b ch (r.val + off.val / 3) (w.val + off.val % 3) := by
  unfold val_main_v19
  have hi : ∀ (k : Fin 9) (a : Fin S8x256x1x56x56.rank),
      a.cast (rfl : S8x256x1x56x56.rank = S8x256x9x56x56.rank) ≠ (2 : Fin S8x256x9x56x56.rank) →
      ((ix5 b ch (0 : Fin 1) r w : S8x256x1x56x56.Idx) a).val
        = ((ix5 b ch k r w : S8x256x9x56x56.Idx) (a.cast (rfl : S8x256x1x56x56.rank = S8x256x9x56x56.rank))).val := fun k a ha => by
    match a, ha with
    | ⟨0, _⟩, _ => rfl
    | ⟨1, _⟩, _ => rfl
    | ⟨2, _⟩, ha => exact absurd rfl ha
    | ⟨3, _⟩, _ => rfl
    | ⟨4, _⟩, _ => rfl
  match off with
  | ⟨0, _⟩ =>
    exact ((concatenate_apply_piece (t := S8x256x9x56x56) 2 _ _ _ 0 (by show 0 < 9; omega) S8x256x1x56x56 (val_main_v10 (F := Ideal) x0) rfl rfl 0 rfl
      (ix5 b ch 0 r w) (hi _) rfl).trans (view0 x0 b ch 0 r w)).trans
      (Cert.PatchGate.padded_congr _ b rfl (by simp) (by simp))
  | ⟨1, _⟩ =>
    exact ((concatenate_apply_piece (t := S8x256x9x56x56) 2 _ _ _ 1 (by show 1 < 9; omega) S8x256x1x56x56 (val_main_v11 (F := Ideal) x0) rfl rfl 1 rfl
      (ix5 b ch 0 r w) (hi _) rfl).trans (view1 x0 b ch 0 r w)).trans
      (Cert.PatchGate.padded_congr _ b rfl (by simp) (by simp))
  | ⟨2, _⟩ =>
    exact ((concatenate_apply_piece (t := S8x256x9x56x56) 2 _ _ _ 2 (by show 2 < 9; omega) S8x256x1x56x56 (val_main_v12 (F := Ideal) x0) rfl rfl 2 rfl
      (ix5 b ch 0 r w) (hi _) rfl).trans (view2 x0 b ch 0 r w)).trans
      (Cert.PatchGate.padded_congr _ b rfl (by simp) (by simp))
  | ⟨3, _⟩ =>
    exact ((concatenate_apply_piece (t := S8x256x9x56x56) 2 _ _ _ 3 (by show 3 < 9; omega) S8x256x1x56x56 (val_main_v13 (F := Ideal) x0) rfl rfl 3 rfl
      (ix5 b ch 0 r w) (hi _) rfl).trans (view3 x0 b ch 0 r w)).trans
      (Cert.PatchGate.padded_congr _ b rfl (by simp) (by simp))
  | ⟨4, _⟩ =>
    exact ((concatenate_apply_piece (t := S8x256x9x56x56) 2 _ _ _ 4 (by show 4 < 9; omega) S8x256x1x56x56 (val_main_v14 (F := Ideal) x0) rfl rfl 4 rfl
      (ix5 b ch 0 r w) (hi _) rfl).trans (view4 x0 b ch 0 r w)).trans
      (Cert.PatchGate.padded_congr _ b rfl (by simp) (by simp))
  | ⟨5, _⟩ =>
    exact ((concatenate_apply_piece (t := S8x256x9x56x56) 2 _ _ _ 5 (by show 5 < 9; omega) S8x256x1x56x56 (val_main_v15 (F := Ideal) x0) rfl rfl 5 rfl
      (ix5 b ch 0 r w) (hi _) rfl).trans (view5 x0 b ch 0 r w)).trans
      (Cert.PatchGate.padded_congr _ b rfl (by simp) (by simp))
  | ⟨6, _⟩ =>
    exact ((concatenate_apply_piece (t := S8x256x9x56x56) 2 _ _ _ 6 (by show 6 < 9; omega) S8x256x1x56x56 (val_main_v16 (F := Ideal) x0) rfl rfl 6 rfl
      (ix5 b ch 0 r w) (hi _) rfl).trans (view6 x0 b ch 0 r w)).trans
      (Cert.PatchGate.padded_congr _ b rfl (by simp) (by simp))
  | ⟨7, _⟩ =>
    exact ((concatenate_apply_piece (t := S8x256x9x56x56) 2 _ _ _ 7 (by show 7 < 9; omega) S8x256x1x56x56 (val_main_v17 (F := Ideal) x0) rfl rfl 7 rfl
      (ix5 b ch 0 r w) (hi _) rfl).trans (view7 x0 b ch 0 r w)).trans
      (Cert.PatchGate.padded_congr _ b rfl (by simp) (by simp))
  | ⟨8, _⟩ =>
    exact ((concatenate_apply_piece (t := S8x256x9x56x56) 2 _ _ _ 8 (by show 8 < 9; omega) S8x256x1x56x56 (val_main_v18 (F := Ideal) x0) rfl rfl 8 rfl
      (ix5 b ch 0 r w) (hi _) rfl).trans (view8 x0 b ch 0 r w)).trans
      (Cert.PatchGate.padded_congr _ b rfl (by simp) (by simp))

/-- The patch of pixel `l`, entry `d`: after the reshape (`d = 9 * ch + off`, `l = 56 * r + w`) and the transpose, the
    specification's channel-major patch. -/
theorem v21_read (x0 : (⟨S8x256x56x56, .f32⟩ : BufTy).Contents (Elt Ideal)) (b : Fin 8) (l : Fin 3136) (d : Fin 2304) :
    val_main_v21 (F := Ideal) x0 (ix3 b l d) = Cert.PatchGate.patchChannelMajor (img x0) b l d := by
  have hb := b.isLt
  have hl := l.isLt
  have hd := d.isLt
  rw [val_main_v21_apply, val_main_v20_apply]
  have e : idx_main_v20 (idx_main_v21 (ix3 b l d))
      = ix5 b (⟨d.val / 9, by omega⟩ : Fin 256) (⟨d.val % 9, by omega⟩ : Fin 9) (⟨l.val / 56, by omega⟩ : Fin 56)
          (⟨l.val % 56, by omega⟩ : Fin 56) := funext fun a => Fin.ext (by
    match a with
    | ⟨0, _⟩ => show ((b.val * 2304 + d.val) * 3136 + l.val) / 7225344 = b.val; omega
    | ⟨1, _⟩ => show ((b.val * 2304 + d.val) * 3136 + l.val) / 28224 % 256 = d.val / 9; omega
    | ⟨2, _⟩ => show ((b.val * 2304 + d.val) * 3136 + l.val) / 3136 % 9 = d.val % 9; omega
    | ⟨3, _⟩ => show ((b.val * 2304 + d.val) * 3136 + l.val) / 56 % 56 = l.val / 56; omega
    | ⟨4, _⟩ => show ((b.val * 2304 + d.val) * 3136 + l.val) % 56 = l.val % 56; omega)
  rw [e, v19_read]
  rfl

/-! ## The three contractions read the patch, the weights and the biases at these indices -/

theorem lidx22 (b : Fin 8) (l : Fin 3136) (c : Fin 256) (k : Fin 2304) : lidx_main_v22 (ix3 b l c) k = ix3 b l k :=
  funext fun a => Fin.ext (by match a with | ⟨0, _⟩ => rfl | ⟨1, _⟩ => rfl | ⟨2, _⟩ => rfl)
theorem ridx22 (b : Fin 8) (l : Fin 3136) (c : Fin 256) (k : Fin 2304) : ridx_main_v22 (ix3 b l c) k = ix2 k c :=
  funext fun a => Fin.ext (by match a with | ⟨0, _⟩ => rfl | ⟨1, _⟩ => rfl)
theorem bidx24 (b : Fin 8) (l : Fin 3136) (c : Fin 256) : idx_main_v23 (idx_main_v24 (ix3 b l c)) = ix1 c :=
  funext fun a => Fin.ext (by match a with | ⟨0, _⟩ => rfl)
theorem lidx27 (b : Fin 8) (l : Fin 3136) (d : Fin 2304) (k : Fin 256) : lidx_main_v27 (ix3 b l d) k = ix3 b l k :=
  funext fun a => Fin.ext (by match a with | ⟨0, _⟩ => rfl | ⟨1, _⟩ => rfl | ⟨2, _⟩ => rfl)
theorem ridx27 (b : Fin 8) (l : Fin 3136) (d : Fin 2304) (k : Fin 256) : ridx_main_v27 (ix3 b l d) k = ix2 k d :=
  funext fun a => Fin.ext (by match a with | ⟨0, _⟩ => rfl | ⟨1, _⟩ => rfl)
theorem bidx29 (b : Fin 8) (l : Fin 3136) (d : Fin 2304) : idx_main_v28 (idx_main_v29 (ix3 b l d)) = ix1 d :=
  funext fun a => Fin.ext (by match a with | ⟨0, _⟩ => rfl)
theorem lidx38 (b : Fin 8) (l : Fin 3136) (o : Fin 256) (k : Fin 2304) : lidx_main_v38 (ix3 b l o) k = ix3 b l k :=
  funext fun a => Fin.ext (by match a with | ⟨0, _⟩ => rfl | ⟨1, _⟩ => rfl | ⟨2, _⟩ => rfl)
theorem ridx38 (b : Fin 8) (l : Fin 3136) (o : Fin 256) (k : Fin 2304) : ridx_main_v38 (ix3 b l o) k = ix2 k o :=
  funext fun a => Fin.ext (by match a with | ⟨0, _⟩ => rfl | ⟨1, _⟩ => rfl)
theorem bidx40 (b : Fin 8) (l : Fin 3136) (o : Fin 256) : idx_main_v39 (idx_main_v40 (ix3 b l o)) = ix1 o :=
  funext fun a => Fin.ext (by match a with | ⟨0, _⟩ => rfl)

/-- The hidden layer of pixel `l`: the rectified affine image of its patch. -/
theorem v26_read (x0 : (⟨S8x256x56x56, .f32⟩ : BufTy).Contents (Elt Ideal)) (x1 : (⟨S2304x256, .f32⟩ : BufTy).Contents (Elt Ideal))
    (x2 : (⟨S256, .f32⟩ : BufTy).Contents (Elt Ideal)) (b : Fin 8) (l : Fin 3136) (c : Fin 256) :
    val_main_v26 (F := Ideal) x0 x1 x2 (ix3 b l c)
      = max (∑ k : Fin 2304, Cert.PatchGate.patchChannelMajor (img x0) b l k * x1 (ix2 k c) + x2 (ix1 c)) 0 := by
  rw [val_main_v26_apply, val_main_v25_apply, val_main_v22_apply, val_main_v24_apply, val_main_v23_apply,
    val_main_call1_v0_apply, val_main_call1_cst_apply, bidx24]
  have hs : (∑ k : Fin 2304, val_main_v21 (F := Ideal) x0 (lidx_main_v22 (ix3 b l c) k) * x1 (ridx_main_v22 (ix3 b l c) k))
      = ∑ k : Fin 2304, Cert.PatchGate.patchChannelMajor (img x0) b l k * x1 (ix2 k c) :=
    Finset.sum_congr rfl fun k _ => by rw [lidx22, ridx22, v21_read]
  rw [hs]
  simp only [Ideal.maximumf_def, Ideal.addf_def, Ideal.ofBits_def, Ideal.ofBits_zero_f32]

/-- The gate of pixel `l` at patch entry `d`: the logistic function of the affine image of the hidden layer. -/
theorem v36_read (x0 : (⟨S8x256x56x56, .f32⟩ : BufTy).Contents (Elt Ideal)) (x1 : (⟨S2304x256, .f32⟩ : BufTy).Contents (Elt Ideal))
    (x2 : (⟨S256, .f32⟩ : BufTy).Contents (Elt Ideal)) (x3 : (⟨S256x2304, .f32⟩ : BufTy).Contents (Elt Ideal))
    (x4 : (⟨S2304, .f32⟩ : BufTy).Contents (Elt Ideal)) (b : Fin 8) (l : Fin 3136) (d : Fin 2304) :
    val_main_v36 (F := Ideal) x0 x1 x2 x3 x4 (ix3 b l d)
      = Ideal.logistic (∑ c : Fin 256,
          max (∑ k : Fin 2304, Cert.PatchGate.patchChannelMajor (img x0) b l k * x1 (ix2 k c) + x2 (ix1 c)) 0 * x3 (ix2 c d)
            + x4 (ix1 d)) := by
  rw [val_main_v36_apply, val_main_v35_apply, val_main_cst_0_apply, val_main_v34_apply, val_main_v33_apply, val_main_cst_apply,
    val_main_v32_apply, val_main_v31_apply, val_main_v30_apply, val_main_v27_apply, val_main_v29_apply, val_main_v28_apply, bidx29]
  have hs : (∑ k : Fin 256, val_main_v26 (F := Ideal) x0 x1 x2 (lidx_main_v27 (ix3 b l d) k) * x3 (ridx_main_v27 (ix3 b l d) k))
      = ∑ c : Fin 256,
          max (∑ k : Fin 2304, Cert.PatchGate.patchChannelMajor (img x0) b l k * x1 (ix2 k c) + x2 (ix1 c)) 0 * x3 (ix2 c d) :=
    Finset.sum_congr rfl fun k _ => by rw [lidx27, ridx27, v26_read]
  rw [hs]
  simp only [Ideal.hostDivf_def, Ideal.addf_def, Ideal.hostUnary_exp_def, Ideal.hostNegf_def, Ideal.negf_def, Ideal.ofBits_def,
    Ideal.ofBits_one_f32, Ideal.logistic]

/-- The reference's result at image `b`, pixel `l`, output channel `o` is the specification. -/
theorem ref_is_result (x0 : (⟨S8x256x56x56, .f32⟩ : BufTy).Contents (Elt Ideal)) (x1 : (⟨S2304x256, .f32⟩ : BufTy).Contents (Elt Ideal))
    (x2 : (⟨S256, .f32⟩ : BufTy).Contents (Elt Ideal)) (x3 : (⟨S256x2304, .f32⟩ : BufTy).Contents (Elt Ideal))
    (x4 : (⟨S2304, .f32⟩ : BufTy).Contents (Elt Ideal)) (x5 : (⟨S2304x256, .f32⟩ : BufTy).Contents (Elt Ideal))
    (x6 : (⟨S256, .f32⟩ : BufTy).Contents (Elt Ideal)) (b : Fin 8) (l : Fin 3136) (o : Fin 256) :
    Cert.ReferenceIdeal.Read.val_main_v41 (F := Ideal) x0 x1 x2 x3 x4 x5 x6 (ValueIdx.ix3 b l o)
      = Cert.PatchGate.result (fun b ch r w => x0 (ValueIdx.ix4 b ch r w)) (fun d c => x1 (ValueIdx.ix2 d c)) (fun c => x2 (ValueIdx.ix1 c))
          (fun c d => x3 (ValueIdx.ix2 c d)) (fun d => x4 (ValueIdx.ix1 d)) (fun d c => x5 (ValueIdx.ix2 d c)) (fun c => x6 (ValueIdx.ix1 c)) b l o := by
  rw [val_main_v41_apply, val_main_v38_apply, val_main_v40_apply, val_main_v39_apply, bidx40]
  have hs : (∑ k : Fin 2304, val_main_v37 (F := Ideal) x0 x1 x2 x3 x4 (lidx_main_v38 (ix3 b l o) k) * x5 (ridx_main_v38 (ix3 b l o) k))
      = ∑ k : Fin 2304, (Cert.PatchGate.patchChannelMajor (img x0) b l k
          * Ideal.logistic (∑ c : Fin 256,
              max (∑ k' : Fin 2304, Cert.PatchGate.patchChannelMajor (img x0) b l k' * x1 (ix2 k' c) + x2 (ix1 c)) 0 * x3 (ix2 c k)
                + x4 (ix1 k))) * x5 (ix2 k o) :=
    Finset.sum_congr rfl fun k _ => by rw [lidx38, ridx38, val_main_v37_apply, v21_read, v36_read, Ideal.mulf_def]
  rw [hs, Ideal.addf_def]
  simp only [Cert.PatchGate.result, Cert.PatchGate.layer]

end Cert.ReferenceIdeal.RefValue

end
-- ==== Proof.KernelHost.lean ====
/-
  The kernel program's host lines, read index by index on the extended reals.

  Before the fused region the program prepares its seven operands from the arguments x, W1, b1, W2, b2, W3, b3:
    * x is moved to channels-last order, padded with one ring of zeros around each 56 x 56 plane, and converted
      to the narrow float type (the identity on the extended reals): entry (b, r, w, ch) of the result is the
      zero-padded input `Cert.PatchGate.padded x b ch r w`;
    * W1 and W3, of shape [2304, 256], are cut as [256, 9, 256], their first two axes exchanged, and flattened
      back: row k = 256 * off + ch of the result is row 9 * ch + off of the argument, that is row
      `Cert.PatchGate.toChannelMajor k`;
    * W2, of shape [256, 2304], is cut as [256, 256, 9], its last two axes exchanged, and flattened back: the
      same renumbering of its columns; b2 likewise, as a one-row matrix;
    * b1 and b3 become one-row matrices.
  After the region the result, of shape [8, 56, 56, 256], is flattened to [8, 3136, 256]: pixel l = 56 * h + w.

  Each array is first written as the composition of the operations that produce it (`v2_term` ... `v19_term`),
  then read at an index (`v2_apply` ... `v19_apply`).  A reshape keeps the row-major position, so each
  reshape step is one equation between two row-major positions, linear once the quotient k / 256 and the
  remainder k % 256 are named; a transpose permutes coordinates.
-/
import proofs.«101146_j12000138625349_2_alg».proof.Proof.Gen.KernelIdeal.Frame
import proofs.«101146_j12000138625349_2_alg».proof.Proof.Spec
import Idealize.ShloMosaic.Lib.ValueIdx
import Idealize.ShloMosaic.Lib.ValueLayout
import Idealize.ShloMosaic.Lib.KernelVsHost
import Idealize.ShloMosaic.Lib.Pipeline.Value

set_option maxRecDepth 16384

noncomputable section

namespace Cert.KernelIdeal.HostValue

open Idealize.ShloMosaic Idealize.ShloMosaic.TcCoe Idealize.ShloMosaic.ValueIdx
open Cert.KernelIdeal Cert.KernelIdeal.Gen

variable (m : (ℓ : Loc nD τ sig) → Buf (Elt Ideal) ℓ) (c : Dev nD)

/-! ## Pure layout: reshape, transpose, reshape read at an index -/

section Layout
variable {α : Type}

/-- Rows regrouped: a `[2304, 256]` array cut as `[256, 9, 256]`, its first two axes exchanged, and flattened back
    reads, at row `k = 256 * off + ch`, row `9 * ch + off` of the operand. -/
theorem rows_regrouped (A : S2304x256.Idx → α) (k : Fin 2304) (o : Fin 256) :
    shapeCast S2304x256 (transpose S9x256x256 [1, 0, 2] (shapeCast S256x9x256 A shapeCasts_S2304x256_S256x9x256)
        transposes_S256x9x256_S9x256x256_1_0_2) shapeCasts_S9x256x256_S2304x256 (ix2 k o)
      = A (ix2 (Cert.PatchGate.toChannelMajor k) o) := by
  have hk := k.isLt
  have hq : k.val / 256 < 9 := by omega
  have hr : k.val % 256 < 256 := Nat.mod_lt _ (by norm_num)
  refine (shapeCast_apply _ _ (ix2 k o) (ix3 (⟨k.val / 256, hq⟩ : Fin 9) (⟨k.val % 256, hr⟩ : Fin 256) o) (by
    rw [Shape.rowMajor_val_two, Shape.rowMajor_val_three]
    show (k.val / 256 * 256 + k.val % 256) * 256 + o.val = k.val * 256 + o.val
    omega)).trans ?_
  refine (transpose_apply _ _ _ _ (ix3 (⟨k.val % 256, hr⟩ : Fin 256) (⟨k.val / 256, hq⟩ : Fin 9) o)
    (fun b => match b with | ⟨0, _⟩ => rfl | ⟨1, _⟩ => rfl | ⟨2, _⟩ => rfl)).trans ?_
  exact shapeCast_apply _ _ _ (ix2 (Cert.PatchGate.toChannelMajor k) o) (by
    rw [Shape.rowMajor_val_two, Shape.rowMajor_val_three]
    show (k.val % 256 * 9 + k.val / 256) * 256 + o.val = (k.val % 256 * 9 + k.val / 256) * 256 + o.val
    rfl)

/-- Columns regrouped: the same renumbering applied to the columns of a `[256, 2304]` array. -/
theorem cols_regrouped (A : S256x2304.Idx → α) (c' : Fin 256) (k : Fin 2304) :
    shapeCast S256x2304 (transpose S256x9x256 [0, 2, 1] (shapeCast S256x256x9 A shapeCasts_S256x2304_S256x256x9)
        transposes_S256x256x9_S256x9x256_0_2_1) shapeCasts_S256x9x256_S256x2304 (ix2 c' k)
      = A (ix2 c' (Cert.PatchGate.toChannelMajor k)) := by
  have hk := k.isLt
  have hq : k.val / 256 < 9 := by omega
  have hr : k.val % 256 < 256 := Nat.mod_lt _ (by norm_num)
  refine (shapeCast_apply _ _ (ix2 c' k) (ix3 c' (⟨k.val / 256, hq⟩ : Fin 9) (⟨k.val % 256, hr⟩ : Fin 256)) (by
    rw [Shape.rowMajor_val_two, Shape.rowMajor_val_three]
    show (c'.val * 9 + k.val / 256) * 256 + k.val % 256 = c'.val * 2304 + k.val
    omega)).trans ?_
  refine (transpose_apply _ _ _ _ (ix3 c' (⟨k.val % 256, hr⟩ : Fin 256) (⟨k.val / 256, hq⟩ : Fin 9))
    (fun b => match b with | ⟨0, _⟩ => rfl | ⟨1, _⟩ => rfl | ⟨2, _⟩ => rfl)).trans ?_
  exact shapeCast_apply _ _ _ (ix2 c' (Cert.PatchGate.toChannelMajor k)) (by
    rw [Shape.rowMajor_val_two, Shape.rowMajor_val_three]
    show c'.val * 2304 + (k.val % 256 * 9 + k.val / 256) = (c'.val * 256 + k.val % 256) * 9 + k.val / 256
    omega)

/-- A vector regrouped: the same renumbering applied to a `[2304]` vector, the result a one-row matrix. -/
theorem vec_regrouped (A : S2304.Idx → α) (u : Fin 1) (k : Fin 2304) :
    shapeCast S1x2304 (transpose S9x256 [1, 0] (shapeCast S256x9 A shapeCasts_S2304_S256x9)
        transposes_S256x9_S9x256_1_0) shapeCasts_S9x256_S1x2304 (ix2 u k)
      = A (ix1 (Cert.PatchGate.toChannelMajor k)) := by
  have hk := k.isLt
  have hu : u.val = 0 := by omega
  have hq : k.val / 256 < 9 := by omega
  have hr : k.val % 256 < 256 := Nat.mod_lt _ (by norm_num)
  refine (shapeCast_apply _ _ (ix2 u k) (ix2 (⟨k.val / 256, hq⟩ : Fin 9) (⟨k.val % 256, hr⟩ : Fin 256)) (by
    rw [Shape.rowMajor_val_two, Shape.rowMajor_val_two]
    show k.val / 256 * 256 + k.val % 256 = u.val * 2304 + k.val
    omega)).trans ?_
  refine (transpose_apply _ _ _ _ (ix2 (⟨k.val % 256, hr⟩ : Fin 256) (⟨k.val / 256, hq⟩ : Fin 9))
    (fun b => match b with | ⟨0, _⟩ => rfl | ⟨1, _⟩ => rfl)).trans ?_
  exact shapeCast_apply _ _ _ (ix1 (Cert.PatchGate.toChannelMajor k)) (by
    rw [Shape.rowMajor_val_one, Shape.rowMajor_val_two]
    show k.val % 256 * 9 + k.val / 256 = k.val % 256 * 9 + k.val / 256
    rfl)

/-- The result's pixels flattened: a `[8, 56, 56, 256]` array read as `[8, 3136, 256]` has pixel `l = 56 * h + w` at
    row `h`, column `w`. -/
theorem pixels_flattened (A : S8x56x56x256.Idx → α) (b : Fin 8) (l : Fin 3136) (o : Fin 256) :
    shapeCast S8x3136x256 A shapeCasts_S8x56x56x256_S8x3136x256 (ix3 b l o)
      = A (ix4 b (⟨l.val / 56, by have := l.isLt; omega⟩ : Fin 56) (⟨l.val % 56, Nat.mod_lt _ (by norm_num)⟩ : Fin 56) o) := by
  have hl := l.isLt
  exact shapeCast_apply _ _ _ _ (by
    rw [Shape.rowMajor_val_three, Shape.rowMajor_val_four]
    show ((b.val * 56 + l.val / 56) * 56 + l.val % 56) * 256 + o.val = (b.val * 3136 + l.val) * 256 + o.val
    omega)

end Layout

/-! ## The buffers the region finds, as the host lines' terms -/

section Terms

/-- The seven arguments as the program is launched with them. -/
abbrev argX : FVec Ideal S8x256x56x56 .f32 := m ((c : Thread nD τ).loc main_arg0)
abbrev argW1 : FVec Ideal S2304x256 .f32 := m ((c : Thread nD τ).loc main_arg1)
abbrev argB1 : FVec Ideal S256 .f32 := m ((c : Thread nD τ).loc main_arg2)
abbrev argW2 : FVec Ideal S256x2304 .f32 := m ((c : Thread nD τ).loc main_arg3)
abbrev argB2 : FVec Ideal S2304 .f32 := m ((c : Thread nD τ).loc main_arg4)
abbrev argW3 : FVec Ideal S2304x256 .f32 := m ((c : Thread nD τ).loc main_arg5)
abbrev argB3 : FVec Ideal S256 .f32 := m ((c : Thread nD τ).loc main_arg6)

local macro "host_term" : tactic => `(tactic| (
  dsimp only [Gen.V, Gen.V0]
  simp only [Gen.hostOps0, Gen.hostOps0_1, Gen.hostOps0_2, List.flatten_cons, List.flatten_nil, List.append_nil,
    List.cons_append, List.nil_append]
  after_results
  rfl))

theorem v2_term :
    @Eq (FVec Ideal S8x58x58x256 .bf16) (V m c main_v2)
      (truncf (F := Ideal) .bf16 (pad S8x58x58x256 ![0, 1, 1, 0] ![0, 1, 1, 0] ![0, 0, 0, 0]
          (transpose S8x56x56x256 [0, 2, 3, 1] (argX m c) transposes_S8x256x56x56_S8x56x56x256_0_2_3_1)
          (sitofp (F := Ideal) .f32 (constantI S_ 32 0#32)) pads_S8x56x56x256_S8x58x58x256_000_110_110_000 h_S_) bitsLt_bf16_f32) := by
  host_term

theorem v6_term :
    @Eq (FVec Ideal S2304x256 .bf16) (V m c main_v6)
      (truncf (F := Ideal) .bf16 (shapeCast S2304x256 (transpose S9x256x256 [1, 0, 2]
          (shapeCast S256x9x256 (argW1 m c) shapeCasts_S2304x256_S256x9x256)
          transposes_S256x9x256_S9x256x256_1_0_2) shapeCasts_S9x256x256_S2304x256) bitsLt_bf16_f32) := by
  host_term

theorem v10_term :
    @Eq (FVec Ideal S2304x256 .bf16) (V m c main_v10)
      (truncf (F := Ideal) .bf16 (shapeCast S2304x256 (transpose S9x256x256 [1, 0, 2]
          (shapeCast S256x9x256 (argW3 m c) shapeCasts_S2304x256_S256x9x256)
          transposes_S256x9x256_S9x256x256_1_0_2) shapeCasts_S9x256x256_S2304x256) bitsLt_bf16_f32) := by
  host_term

theorem v14_term :
    @Eq (FVec Ideal S256x2304 .bf16) (V m c main_v14)
      (truncf (F := Ideal) .bf16 (shapeCast S256x2304 (transpose S256x9x256 [0, 2, 1]
          (shapeCast S256x256x9 (argW2 m c) shapeCasts_S256x2304_S256x256x9)
          transposes_S256x256x9_S256x9x256_0_2_1) shapeCasts_S256x9x256_S256x2304) bitsLt_bf16_f32) := by
  host_term

theorem v17_term :
    @Eq (FVec Ideal S1x2304 .f32) (V m c main_v17)
      (shapeCast S1x2304 (transpose S9x256 [1, 0] (shapeCast S256x9 (argB2 m c) shapeCasts_S2304_S256x9)
          transposes_S256x9_S9x256_1_0) shapeCasts_S9x256_S1x2304) := by
  host_term

theorem v18_term :
    @Eq (FVec Ideal S1x256 .f32) (V m c main_v18) (shapeCast S1x256 (argB1 m c) shapeCasts_S256_S1x256) := by
  host_term

theorem v19_term :
    @Eq (FVec Ideal S1x256 .f32) (V m c main_v19) (shapeCast S1x256 (argB3 m c) shapeCasts_S256_S1x256) := by
  host_term

end Terms

/-! ## The same buffers read at an index -/

section Reads

/-- The padding value: the integer constant 0 converted to a float is 0. -/
theorem pad_value (i : S_.Idx) : (sitofp (F := Ideal) .f32 (constantI S_ 32 0#32) : FVec Ideal S_ .f32) i = (0 : EReal) := by
  show (((0#32 : BitVec 32).toInt : ℝ) : EReal) = 0
  simp

/-- The kernel's first operand is the zero-padded input, channels last. -/
theorem v2_apply (b : Fin 8) (r w : Fin 58) (ch : Fin 256) :
    @Eq EReal ((V m c main_v2 : FVec Ideal S8x58x58x256 .bf16) (ix4 b r w ch))
      (Cert.PatchGate.padded (fun b ch r w => argX m c (ix4 b ch r w)) b ch r.val w.val) := by
  refine (congrFun (v2_term m c) (ix4 b r w ch)).trans ?_
  show pad S8x58x58x256 ![0, 1, 1, 0] ![0, 1, 1, 0] ![0, 0, 0, 0]
      (transpose S8x56x56x256 [0, 2, 3, 1] (argX m c) transposes_S8x256x56x56_S8x56x56x256_0_2_3_1)
      (sitofp (F := Ideal) .f32 (constantI S_ 32 0#32)) pads_S8x56x56x256_S8x58x58x256_000_110_110_000 h_S_ (ix4 b r w ch) = _
  have hr58 := r.isLt
  have hw58 := w.isLt
  unfold Cert.PatchGate.padded
  by_cases h : (1 ≤ r.val ∧ r.val ≤ 56) ∧ (1 ≤ w.val ∧ w.val ≤ 56)
  · rw [dif_pos h]
    refine (pad_apply_of_inside _ _ _ _ _ _ _ (ix4 b r w ch)
      (ix4 b (⟨r.val - 1, by omega⟩ : Fin 56) (⟨w.val - 1, by omega⟩ : Fin 56) ch) (fun a => match a with
        | ⟨0, _⟩ => by show b.val = 0 + b.val * (0 + 1); omega
        | ⟨1, _⟩ => by show r.val = 1 + (r.val - 1) * (0 + 1); omega
        | ⟨2, _⟩ => by show w.val = 1 + (w.val - 1) * (0 + 1); omega
        | ⟨3, _⟩ => by show ch.val = 0 + ch.val * (0 + 1); omega)).trans ?_
    exact transpose_apply _ _ _ _ (ix4 b ch (⟨r.val - 1, by omega⟩ : Fin 56) (⟨w.val - 1, by omega⟩ : Fin 56))
      (fun a => match a with | ⟨0, _⟩ => rfl | ⟨1, _⟩ => rfl | ⟨2, _⟩ => rfl | ⟨3, _⟩ => rfl)
  · rw [dif_neg h]
    by_cases hr : 1 ≤ r.val ∧ r.val ≤ 56
    · have hw : ¬(1 ≤ w.val ∧ w.val ≤ 56) := fun hw => h ⟨hr, hw⟩
      refine (pad_apply_of_not_inside _ _ _ _ _ _ _ (ix4 b r w ch) (2 : Fin 4) ?_).trans (pad_value _)
      show ¬(1 ≤ w.val ∧ (w.val - 1) % (0 + 1) = 0 ∧ (w.val - 1) / (0 + 1) < 56)
      omega
    · refine (pad_apply_of_not_inside _ _ _ _ _ _ _ (ix4 b r w ch) (1 : Fin 4) ?_).trans (pad_value _)
      show ¬(1 ≤ r.val ∧ (r.val - 1) % (0 + 1) = 0 ∧ (r.val - 1) / (0 + 1) < 56)
      omega

/-- The first weight matrix with its rows renumbered offset-major. -/
theorem v6_apply (k : Fin 2304) (o : Fin 256) :
    @Eq EReal ((V m c main_v6 : FVec Ideal S2304x256 .bf16) (ix2 k o)) (argW1 m c (ix2 (Cert.PatchGate.toChannelMajor k) o)) :=
  (congrFun (v6_term m c) (ix2 k o)).trans (rows_regrouped (argW1 m c) k o)

/-- The third weight matrix with its rows renumbered offset-major. -/
theorem v10_apply (k : Fin 2304) (o : Fin 256) :
    @Eq EReal ((V m c main_v10 : FVec Ideal S2304x256 .bf16) (ix2 k o)) (argW3 m c (ix2 (Cert.PatchGate.toChannelMajor k) o)) :=
  (congrFun (v10_term m c) (ix2 k o)).trans (rows_regrouped (argW3 m c) k o)

/-- The second weight matrix with its columns renumbered offset-major. -/
theorem v14_apply (c' : Fin 256) (k : Fin 2304) :
    @Eq EReal ((V m c main_v14 : FVec Ideal S256x2304 .bf16) (ix2 c' k)) (argW2 m c (ix2 c' (Cert.PatchGate.toChannelMajor k))) :=
  (congrFun (v14_term m c) (ix2 c' k)).trans (cols_regrouped (argW2 m c) c' k)

/-- The second bias renumbered offset-major, as a one-row matrix. -/
theorem v17_apply (u : Fin 1) (k : Fin 2304) :
    @Eq EReal ((V m c main_v17 : FVec Ideal S1x2304 .f32) (ix2 u k)) (argB2 m c (ix1 (Cert.PatchGate.toChannelMajor k))) :=
  (congrFun (v17_term m c) (ix2 u k)).trans (vec_regrouped (argB2 m c) u k)

/-- The first bias as a one-row matrix. -/
theorem v18_apply (u : Fin 1) (o : Fin 256) :
    @Eq EReal ((V m c main_v18 : FVec Ideal S1x256 .f32) (ix2 u o)) (argB1 m c (ix1 o)) :=
  (congrFun (v18_term m c) (ix2 u o)).trans (shapeCast_a_1a_apply (argB1 m c) shapeCasts_S256_S1x256 u o)

/-- The third bias as a one-row matrix. -/
theorem v19_apply (u : Fin 1) (o : Fin 256) :
    @Eq EReal ((V m c main_v19 : FVec Ideal S1x256 .f32) (ix2 u o)) (argB3 m c (ix1 o)) :=
  (congrFun (v19_term m c) (ix2 u o)).trans (shapeCast_a_1a_apply (argB3 m c) shapeCasts_S256_S1x256 u o)

end Reads

end Cert.KernelIdeal.HostValue

end
-- ==== Proof.LibRowColDot.lean ====
/-
  A rows-by-columns matrix product read at an output index, at the ideal values.

  For dimension numbers that contract the second axis of an `[a, n]` left operand with the first axis of an
  `[n, b]` right operand into an `[a, b]` result, the entry `(p, q)` of the product is
  `∑ k : Fin n, lhs (p, k) * rhs (k, q)` — for the kernel's matrix unit accumulating into the zero splat
  (`matmul_rowcol`) and for the host's `dot_general` (`hostDot_rowcol`) alike. The two facts about the
  dimension numbers that are not read off a contracted axis (`hl0`, `hr1`: the kept coordinate of each
  operand index is the output's) are hypotheses: a caller has them by unfolding its literal record.
-/
import Idealize.ShloMosaic.PureOps.Ideal.Laws
import Idealize.ShloMosaic.Lib.ValueIdx

noncomputable section

namespace Cert.RowColDot

open Idealize.ShloMosaic Idealize.ShloMosaic.ValueIdx

variable {a n b : ℕ} {φ₁ φ₂ : FTy}

/-- The left operand's index at output `j` and contraction coordinate `k` is `(j 0, k)`. -/
theorem lhsIdx_eq (d : DotDims ⟨2, ![a, n]⟩ ⟨2, ![n, b]⟩ ⟨2, ![a, b]⟩)
    (hr : d.contr.rank = 1) (hs : d.contr.size ⟨0, by omega⟩ = n) (hcl : d.lhsContracting = [1])
    (hl0 : ∀ j q, (d.lhsIdx j q 0).val = (j 0).val) (j : (⟨2, ![a, b]⟩ : Shape).Idx) (k : Fin n) :
    d.lhsIdx j ((contrEquiv1 d n hr hs).symm k) = ix2 (j 0) k :=
  funext fun x => Fin.ext (by
    match x with
    | ⟨0, _⟩ => exact hl0 _ _
    | ⟨1, _⟩ => exact (d.lhsIdx_val_of_single hcl j _).trans (contrEquiv1_symm_val d n hr hs k))

/-- The right operand's index at output `j` and contraction coordinate `k` is `(k, j 1)`. -/
theorem rhsIdx_eq (d : DotDims ⟨2, ![a, n]⟩ ⟨2, ![n, b]⟩ ⟨2, ![a, b]⟩)
    (hr : d.contr.rank = 1) (hs : d.contr.size ⟨0, by omega⟩ = n) (hcr : d.rhsContracting = [0])
    (hr1 : ∀ j q, (d.rhsIdx j q 1).val = (j 1).val) (j : (⟨2, ![a, b]⟩ : Shape).Idx) (k : Fin n) :
    d.rhsIdx j ((contrEquiv1 d n hr hs).symm k) = ix2 k (j 1) :=
  funext fun x => Fin.ext (by
    match x with
    | ⟨0, _⟩ => exact (d.rhsIdx_val_of_single hcr j _).trans (contrEquiv1_symm_val d n hr hs k)
    | ⟨1, _⟩ => exact hr1 _ _)

/-- The matrix unit's product into the zero accumulator, at `(p, q)`: the sum over `k` of `lhs (p, k) * rhs (k, q)`. -/
theorem matmul_rowcol (d : DotDims ⟨2, ![a, n]⟩ ⟨2, ![n, b]⟩ ⟨2, ![a, b]⟩)
    (hr : d.contr.rank = 1) (hs : d.contr.size ⟨0, by omega⟩ = n)
    (hcl : d.lhsContracting = [1]) (hcr : d.rhsContracting = [0])
    (hl0 : ∀ j q, (d.lhsIdx j q 0).val = (j 0).val) (hr1 : ∀ j q, (d.rhsIdx j q 1).val = (j 1).val)
    (prec : Option ContractPrecision) (lhs : FVec Ideal ⟨2, ![a, n]⟩ φ₁) (rhs : FVec Ideal ⟨2, ![n, b]⟩ φ₂)
    (j : (⟨2, ![a, b]⟩ : Shape).Idx) :
    matmul d prec lhs rhs (constant ⟨2, ![a, b]⟩ .f32 0x00000000#32) j
      = ∑ k : Fin n, lhs (ix2 (j 0) k) * rhs (ix2 k (j 1)) := by
  show FloatOps.matmul d prec lhs rhs (constant ⟨2, ![a, b]⟩ .f32 0x00000000#32) j = _
  rw [Ideal.matmul_constant_zero_apply, ← Equiv.sum_comp (contrEquiv1 d n hr hs).symm]
  refine Finset.sum_congr rfl fun k _ => ?_
  rw [lhsIdx_eq d hr hs hcl hl0 j k, rhsIdx_eq d hr hs hcr hr1 j k]
  all_goals rfl

/-- The host's `dot_general` with the same dimension numbers, at `(p, q)`: the same sum. -/
theorem hostDot_rowcol (d : DotDims ⟨2, ![a, n]⟩ ⟨2, ![n, b]⟩ ⟨2, ![a, b]⟩)
    (hr : d.contr.rank = 1) (hs : d.contr.size ⟨0, by omega⟩ = n)
    (hcl : d.lhsContracting = [1]) (hcr : d.rhsContracting = [0])
    (hl0 : ∀ j q, (d.lhsIdx j q 0).val = (j 0).val) (hr1 : ∀ j q, (d.rhsIdx j q 1).val = (j 1).val)
    (prec : Option ContractPrecision) (lhs : FVec Ideal ⟨2, ![a, n]⟩ φ₁) (rhs : FVec Ideal ⟨2, ![n, b]⟩ φ₂)
    (j : (⟨2, ![a, b]⟩ : Shape).Idx) :
    Host.dotGeneral d prec lhs rhs j = ∑ k : Fin n, lhs (ix2 (j 0) k) * rhs (ix2 k (j 1)) := by
  simp only [Host.dotGeneral]
  rw [Ideal.dotGeneral_apply, ← Equiv.sum_comp (contrEquiv1 d n hr hs).symm]
  refine Finset.sum_congr rfl fun k _ => ?_
  rw [lhsIdx_eq d hr hs hcl hl0 j k, rhsIdx_eq d hr hs hcr hr1 j k]
  all_goals rfl

end Cert.RowColDot

end
-- ==== Proof.LibRowBroadcast.lean ====
/-
  A general reading at an index: a one-row array `[1, n]` repeated along the rows to `[a, n]` holds, at `(p, c)`, the
  row's entry `c` — a bias row added to every row of a matrix. Independent of any program.
-/
import Idealize.ShloMosaic.Lib.ValueIdx
import Idealize.ShloMosaic.Lib.Pipeline.Value

noncomputable section

namespace Cert.RowBroadcast

open Idealize.ShloMosaic Idealize.ShloMosaic.ValueIdx

variable {α : Type} {a n : ℕ}

/-- A row `[1, n]` broadcast to `[a, n]` holds, at `(p, c)`, the row's entry `(0, c)`. -/
theorem row_broadcast_apply (v : (⟨2, ![1, n]⟩ : Shape).Idx → α)
    (h : (⟨2, ![1, n]⟩ : Shape).Broadcasts ⟨2, ![a, n]⟩) (p : Fin a) (c : Fin n) :
    broadcastTo ⟨2, ![a, n]⟩ v h (ix2 p c) = v (ix2 (0 : Fin 1) c) := by
  refine broadcastTo_apply v h (ix2 p c) (ix2 (0 : Fin 1) c) fun ax => ?_
  match ax with
  | ⟨0, _⟩ => rfl
  | ⟨1, _⟩ =>
    show c.val = if n = 1 then 0 else c.val
    split
    · have := c.isLt; omega
    · rfl

end Cert.RowBroadcast

end
-- ==== Proof.BodyTile.lean ====
/-
  One row tile of the kernel body, read at an index, at the ideal values.

  The body handles 14 image rows (784 pixels) at a time.  From the tile's patch matrix `xc` ([784, 2304]: one
  offset-major patch per pixel) it computes, as whole-matrix operations,
      hid  = max (xc · w1 + b1) 0                 [784, 256]
      gate = logistic (hid · w2 + b2)              [784, 2304]
      out  = (xc * gate) · w3 + b3                 [784, 256]
  and stores `out` reshaped to [1, 14, 56, 256].  Read at pixel (r, w) and channel o this is the gated layer
  of the specification on row 56 r + w of `xc`: each matrix product is a sum over the contracted axis, the
  bias rows are repeated along the pixels, everything else is pointwise, and a change of float format is the
  identity at the ideal values.
-/
import proofs.«101146_j12000138625349_2_alg».proof.Proof.Gen.KernelIdeal.Skeleton
import proofs.«101146_j12000138625349_2_alg».proof.Proof.Spec
import proofs.«101146_j12000138625349_2_alg».proof.Proof.LibRowColDot
import proofs.«101146_j12000138625349_2_alg».proof.Proof.LibRowBroadcast
import Idealize.ShloMosaic.Lib.Pipeline.Value
import Idealize.ShloMosaic.Lib.ValueIdx
import Idealize.ShloMosaic.PureOps.Ideal.Laws

set_option maxRecDepth 16384

noncomputable section

namespace Cert.KernelIdeal.TileValue

open Idealize.ShloMosaic Idealize.ShloMosaic.ValueIdx Cert.KernelIdeal Cert.KernelIdeal.Gen

local notation "dotA" => dot_S784x2304_S2304x256_S784x256_1_0_0_1_n_n
local notation "dotB" => dot_S784x256_S256x2304_S784x2304_1_0_0_1_n_n

theorem dotA_l0 : ∀ j q, ((dotA).lhsIdx j q 0).val = (j 0).val := fun j q => by
  unfold DotDims.lhsIdx
  rw [dif_neg (show ¬(0 : Fin S784x2304.rank) ∈ (dotA).lhsBatch by decide),
    dif_pos (show (0 : Fin S784x2304.rank) ∈ (dotA).lhsNonContracting by decide)]
  rfl
theorem dotA_r1 : ∀ j q, ((dotA).rhsIdx j q 1).val = (j 1).val := fun j q => by
  unfold DotDims.rhsIdx
  rw [dif_neg (show ¬(1 : Fin S2304x256.rank) ∈ (dotA).rhsBatch by decide),
    dif_pos (show (1 : Fin S2304x256.rank) ∈ (dotA).rhsNonContracting by decide)]
  rfl
theorem dotB_l0 : ∀ j q, ((dotB).lhsIdx j q 0).val = (j 0).val := fun j q => by
  unfold DotDims.lhsIdx
  rw [dif_neg (show ¬(0 : Fin S784x256.rank) ∈ (dotB).lhsBatch by decide),
    dif_pos (show (0 : Fin S784x256.rank) ∈ (dotB).lhsNonContracting by decide)]
  rfl
theorem dotB_r1 : ∀ j q, ((dotB).rhsIdx j q 1).val = (j 1).val := fun j q => by
  unfold DotDims.rhsIdx
  rw [dif_neg (show ¬(1 : Fin S256x2304.rank) ∈ (dotB).rhsBatch by decide),
    dif_pos (show (1 : Fin S256x2304.rank) ∈ (dotB).rhsNonContracting by decide)]
  rfl

/-- [784, 2304] times [2304, 256] into the zero accumulator, at (p, c). -/
theorem mmA_apply (l : FVec Ideal S784x2304 .bf16) (r : FVec Ideal S2304x256 .bf16) (p : Fin 784) (c : Fin 256) :
    matmul dotA none l r (constant S784x256 .f32 0x00000000#32) (ix2 p c) = ∑ k : Fin 2304, l (ix2 p k) * r (ix2 k c) :=
  Cert.RowColDot.matmul_rowcol dotA rfl rfl rfl rfl dotA_l0 dotA_r1 none l r (ix2 p c)

/-- [784, 256] times [256, 2304] into the zero accumulator, at (p, k). -/
theorem mmB_apply (l : FVec Ideal S784x256 .bf16) (r : FVec Ideal S256x2304 .bf16) (p : Fin 784) (k : Fin 2304) :
    matmul dotB none l r (constant S784x2304 .f32 0x00000000#32) (ix2 p k) = ∑ c : Fin 256, l (ix2 p c) * r (ix2 c k) :=
  Cert.RowColDot.matmul_rowcol dotB rfl rfl rfl rfl dotB_l0 dotB_r1 none l r (ix2 p k)

/-- The hidden layer at pixel p, channel c. -/
theorem hidden_apply (xc : FVec Ideal S784x2304 .bf16) (w1 : FVec Ideal S2304x256 .bf16) (b1 : FVec Ideal S1x256 .f32)
    (p : Fin 784) (c : Fin 256) :
    maximumf (addf (matmul dotA none xc w1 (constant S784x256 .f32 0x00000000#32))
        (broadcastTo S784x256 b1 broadcasts_S1x256_S784x256))
      (broadcast S784x256 (Scalar.ofBits .f32 0x00000000#32)) (ix2 p c)
    = max (∑ k : Fin 2304, xc (ix2 p k) * w1 (ix2 k c) + b1 (ix2 (0 : Fin 1) c)) 0 := by
  rw [maximumf_apply, addf_apply, mmA_apply, Cert.RowBroadcast.row_broadcast_apply, broadcast_apply]
  show max _ (Ideal.ofBits .f32 0x00000000#32) = _
  rw [Ideal.ofBits_zero_f32]

/-- The gate at pixel p, patch position k. -/
theorem gate_apply (hid : FVec Ideal S784x256 .f32) (w2 : FVec Ideal S256x2304 .bf16) (b2 : FVec Ideal S1x2304 .f32)
    (p : Fin 784) (k : Fin 2304) :
    truncf .bf16 (logistic (addf (matmul dotB none (truncf .bf16 hid bitsLt_bf16_f32) w2 (constant S784x2304 .f32 0x00000000#32))
        (broadcastTo S784x2304 b2 broadcasts_S1x2304_S784x2304))) bitsLt_bf16_f32 (ix2 p k)
    = Ideal.logistic (∑ c : Fin 256, hid (ix2 p c) * w2 (ix2 c k) + b2 (ix2 (0 : Fin 1) k)) := by
  show Ideal.logistic (addf (matmul dotB none (truncf .bf16 hid bitsLt_bf16_f32) w2 (constant S784x2304 .f32 0x00000000#32))
        (broadcastTo S784x2304 b2 broadcasts_S1x2304_S784x2304) (ix2 p k)) = _
  rw [addf_apply, mmB_apply, Cert.RowBroadcast.row_broadcast_apply]
  rfl

/-- The output at pixel p, channel o. -/
theorem out_apply (xc g : FVec Ideal S784x2304 .bf16) (w3 : FVec Ideal S2304x256 .bf16) (b3 : FVec Ideal S1x256 .f32)
    (p : Fin 784) (o : Fin 256) :
    addf (matmul dotA none (mulf xc g) w3 (constant S784x256 .f32 0x00000000#32))
        (broadcastTo S784x256 b3 broadcasts_S1x256_S784x256) (ix2 p o)
    = ∑ k : Fin 2304, (xc (ix2 p k) * g (ix2 p k)) * w3 (ix2 k o) + b3 (ix2 (0 : Fin 1) o) := by
  rw [addf_apply, mmA_apply, Cert.RowBroadcast.row_broadcast_apply]
  rfl

/-- A [784, 256] matrix stored as a [1, 14, 56, 256] block: entry (0, r, w, o) is entry (56 r + w, o). -/
theorem unflatten_apply {α : Type} (v : S784x256.Idx → α) (r : Fin 14) (w : Fin 56) (o : Fin 256) :
    shapeCast S1x14x56x256 (shapeCast S14x56x256 v shapeCasts_S784x256_S14x56x256) shapeCasts_S14x56x256_S1x14x56x256
      (ix4 (0 : Fin 1) r w o) = v (ix2 ⟨r.val * 56 + w.val, by have := r.isLt; have := w.isLt; omega⟩ o) := by
  refine (shapeCast_apply _ _ _ (ix3 r w o) ?_).trans (shapeCast_apply _ _ _ _ ?_)
  · rw [Shape.rowMajor_val_three, Shape.rowMajor_val_four]; simp
  · rw [Shape.rowMajor_val_two, Shape.rowMajor_val_three]; rfl

/-- The tile read at an index is the gated layer on the pixel's patch row. -/
theorem tile_apply (xc : FVec Ideal S784x2304 .bf16) (w1 : FVec Ideal S2304x256 .bf16) (b1 : FVec Ideal S1x256 .f32)
    (w2 : FVec Ideal S256x2304 .bf16) (b2 : FVec Ideal S1x2304 .f32) (w3 : FVec Ideal S2304x256 .bf16)
    (b3 : FVec Ideal S1x256 .f32) (r : Fin 14) (w : Fin 56) (o : Fin 256) :
    k0_pay18 (F := Ideal) b1 b2 b3 w1 w2 w3 xc (ix4 (0 : Fin 1) r w o)
    = Cert.PatchGate.layer (fun k => xc (ix2 ⟨r.val * 56 + w.val, by have := r.isLt; have := w.isLt; omega⟩ k))
        (fun k c => w1 (ix2 k c)) (fun c => b1 (ix2 (0 : Fin 1) c)) (fun c k => w2 (ix2 c k))
        (fun k => b2 (ix2 (0 : Fin 1) k)) (fun k c => w3 (ix2 k c)) (fun c => b3 (ix2 (0 : Fin 1) c)) o := by
  unfold k0_pay18
  refine (unflatten_apply _ r w o).trans ?_
  refine (out_apply _ _ _ _ _ o).trans ?_
  unfold Cert.PatchGate.layer
  simp only [gate_apply, hidden_apply]

/-- The later tiles print the same operations cut into payloads at other places. -/
theorem pay41_eq (b1 : FVec Ideal S1x256 .f32) (b2 : FVec Ideal S1x2304 .f32) (b3 : FVec Ideal S1x256 .f32)
    (w1 : FVec Ideal S2304x256 .bf16) (w2 : FVec Ideal S256x2304 .bf16) (w3 : FVec Ideal S2304x256 .bf16)
    (xc : Vec Ideal S784x2304 .bf16) : k0_pay41 (F := Ideal) b1 b2 b3 w1 w2 w3 xc = k0_pay18 (F := Ideal) b1 b2 b3 w1 w2 w3 xc := rfl
theorem pay30_eq (b1 : FVec Ideal S1x256 .f32) (b2 : FVec Ideal S1x2304 .f32) (b3 : FVec Ideal S1x256 .f32)
    (w1 : FVec Ideal S2304x256 .bf16) (w2 : FVec Ideal S256x2304 .bf16) (w3 : FVec Ideal S2304x256 .bf16)
    (xc : Vec Ideal S784x2304 .bf16) :
    k0_pay30 (F := Ideal) b2 b3 w2 w3 xc (k0_pay29 (F := Ideal) b1 w1 xc) = k0_pay18 (F := Ideal) b1 b2 b3 w1 w2 w3 xc := rfl
theorem pay1_eq (b1 : FVec Ideal S1x256 .f32) (b2 : FVec Ideal S1x2304 .f32) (b3 : FVec Ideal S1x256 .f32)
    (w1 : FVec Ideal S2304x256 .bf16) (w2 : FVec Ideal S256x2304 .bf16) (w3 : FVec Ideal S2304x256 .bf16)
    (xc : Vec Ideal S784x2304 .bf16) :
    k0_pay1 (F := Ideal) b3 w3 xc (k0_pay53 (F := Ideal) b1 w1 w2 xc) (k0_pay54 (F := Ideal) b2) = k0_pay18 (F := Ideal) b1 b2 b3 w1 w2 w3 xc := rfl

end Cert.KernelIdeal.TileValue

end
-- ==== Proof.LibFirstCover.lean ====
/-
  A general fact about a buffer filled by a list of stores (last store first): at an element that one of the
  FIRST stores of the list covers, where all of those first stores write values of one function `G` of the
  element's index, the buffer holds `G` there — whatever the later entries of the list (the EARLIER stores,
  already overwritten) were.  A scratch buffer refilled piece by piece on every trip of an unrolled loop is
  read this way: only the last refill matters.  Independent of any program.
-/
import Idealize.ShloMosaic.Lib.Pipeline.Value

noncomputable section

namespace Cert.FirstCover

open Idealize.ShloMosaic

variable {Val : EltTy → Type} {S : Shape} {e : EltTy}

/-- The contents left by the stores `L1 ++ L2` (last first), at an index covered by a store of `L1`, when every
    store of `L1` writes `G` at the indices it covers. -/
theorem canon_apply_of_prefix [∀ e, Nonempty (Val e)] (G : S.Idx → Val e) :
    ∀ (L1 L2 : List (View.Piece Val S e)) (_ : ∀ p ∈ L1, ∀ x : p.1.shape.Idx, p.2 x = G (p.1.emb x)) (y : S.Idx)
      (_ : ∃ p ∈ L1, y ∈ p.1.set), View.canon (L1 ++ L2) y = G y
  | [], _, _, _, hy => by obtain ⟨p, hp, _⟩ := hy; simp at hp
  | p :: L, L2, hL, y, hy => by
    by_cases hm : y ∈ p.1.set
    · obtain ⟨x, rfl⟩ := p.1.exists_idx_of_mem hm
      show View.canon (p :: (L ++ L2)) (p.1.idx x) = _
      rw [show p.1.idx x = p.1.emb x from rfl, View.canon_cons_emb]
      exact hL p (by simp) x
    · show View.canon (p :: (L ++ L2)) y = _
      rw [View.canon_cons_of_not_mem _ _ hm]
      refine canon_apply_of_prefix G L L2 (fun q hq => hL q (by simp [hq])) y ?_
      obtain ⟨q, hq, hyq⟩ := hy
      rcases List.mem_cons.mp hq with rfl | hq'
      · exact absurd hyq hm
      · exact ⟨q, hq', hyq⟩

/-- The same for a load of the whole buffer after those stores: every element reads `G`, when the stores of `L1`
    cover the buffer. -/
theorem readCov_whole_of_prefix [∀ e, Nonempty (Val e)] {sig : RefSig} {κ : Kind} {sp : Space} (v : View sig κ sp S e)
    (G : S.Idx → Val e) (L1 L2 : List (View.Piece Val S e))
    (hL : ∀ p ∈ L1, ∀ x : p.1.shape.Idx, p.2 x = G (p.1.emb x)) (hcov : ∀ y : S.Idx, ∃ p ∈ L1, y ∈ p.1.set)
    {off : Fin S.rank → Nat} (hz : off = fun _ => 0) (inb : ∀ a, off a + S.size a ≤ S.size a) :
    v.readCov (L1 ++ L2) (Rect.unit off S.size inb).toLoadRect = G := by
  subst hz
  rw [View.readCov_eq_canon']
  funext y
  have hy : (Rect.unit (fun _ => 0) S.size inb).toLoadRect.idx y = y := Rect.emb_whole_apply S y
  rw [hy]
  exact canon_apply_of_prefix G L1 L2 hL y (hcov y)

end Cert.FirstCover

end
-- ==== Proof.BodyPatch.lean ====
/-
  The patch matrix of one row tile, as the body builds it in its scratch buffer.

  For the 14 image rows starting at padded row `r0` the body stores nine [784, 256] column blocks into the
  [784, 2304] scratch buffer: block `off = 3 ki + kj` (columns 256 off … 256 off + 255) is the [14, 56, 256]
  window of the padded image block at rows r0 + ki …, columns kj …, flattened to 784 = 14 * 56 pixels.  The
  buffer is then loaded whole.  So entry (p, k) of what is loaded is the padded image at row
  r0 + p / 56 + (k / 256) / 3, column p % 56 + (k / 256) % 3, channel k % 256: the offset-major patch of
  pixel p.  The scratch buffer still carries the stores of the earlier tiles; they are all overwritten.
-/
import proofs.«101146_j12000138625349_2_alg».proof.Proof.Gen.KernelIdeal.Frame.Runs
import proofs.«101146_j12000138625349_2_alg».proof.Proof.LibFirstCover
import Idealize.ShloMosaic.Lib.Pipeline.Value
import Idealize.ShloMosaic.Lib.ValueIdx

set_option maxRecDepth 16384

noncomputable section

namespace Cert.KernelIdeal.PatchValue

open Idealize.ShloMosaic Idealize.ShloMosaic.ValueIdx Cert.KernelIdeal Cert.KernelIdeal.Gen

/-- The offset-major patch matrix of the 14 rows from padded row `r0` of a padded image block. -/
def patchRows (x0 : S1x58x58x256.Idx → EReal) (r0 : ℕ) (hr0 : r0 + 16 ≤ 58) : S784x2304.Idx → EReal :=
  fun y => x0 (ix4 (0 : Fin 1)
    ⟨r0 + (y 0).val / 56 + (y 1).val / 256 / 3, by have h0 : (y 0).val < 784 := (y 0).isLt; have h1 : (y 1).val < 2304 := (y 1).isLt; show _ < 58; omega⟩
    ⟨(y 0).val % 56 + (y 1).val / 256 % 3, by have h0 : (y 0).val < 784 := (y 0).isLt; have h1 : (y 1).val < 2304 := (y 1).isLt; show _ < 58; omega⟩
    ⟨(y 1).val % 256, Nat.mod_lt _ (by norm_num)⟩)

/-- A [1, 14, 56, 256] window flattened to [784, 256]: pixel p is row p / 56, column p % 56 of the window. -/
theorem flat_apply {α : Type} (v : S1x14x56x256.Idx → α) (p : Fin 784) (c : Fin 256) :
    shapeCast S784x256 (shapeCast S784x256 (shapeCast S14x56x256 v shapeCasts_S1x14x56x256_S14x56x256)
      shapeCasts_S14x56x256_S784x256) shapeCasts_S784x256_S784x256 (ix2 p c)
    = v (ix4 (0 : Fin 1) ⟨p.val / 56, by have := p.isLt; omega⟩ ⟨p.val % 56, Nat.mod_lt _ (by norm_num)⟩ c) := by
  rw [shapeCast_self]
  refine (shapeCast_apply _ _ _ (ix3 (⟨p.val / 56, by have := p.isLt; omega⟩ : Fin 14) (⟨p.val % 56, Nat.mod_lt _ (by norm_num)⟩ : Fin 56) c) ?_).trans
    (shapeCast_apply _ _ _ _ ?_)
  · rw [Shape.rowMajor_val_three, Shape.rowMajor_val_two]
    show (p.val / 56 * 56 + p.val % 56) * 256 + c.val = p.val * 256 + c.val
    have := Nat.div_add_mod p.val 56; congr 1; omega
  · rw [Shape.rowMajor_val_four, Shape.rowMajor_val_three]; simp

/-- A [14, 56, 256] window of the padded image block loaded through the whole staging buffer and flattened:
    pixel p, channel c is the block at row `ro + p / 56`, column `co + p % 56`. -/
theorem window_apply (x0 : Vec Ideal S1x58x58x256 .bf16) (arg1 : Memref sig .tc .vmem S1x58x58x256 .bf16)
    (harg1 : arg1.IsWhole) (ro co : ℕ)
    (inb : ∀ a, (![0, ro, co, 0] : Fin 4 → ℕ) a + S1x14x56x256.size a ≤ S1x58x58x256.size a) (p : Fin 784) (c : Fin 256) :
    k0_pay8 (F := Ideal) (View.readAt (Elt Ideal) arg1.view
        (Rect.unit (s := S1x58x58x256) ![0, ro, co, 0] S1x14x56x256.size inb).toLoadRect (harg1.unread x0)) (ix2 p c)
    = x0 (ix4 (0 : Fin 1) ⟨ro + p.val / 56, by have h : ro + 14 ≤ 58 := inb 1; have := p.isLt; omega⟩
        ⟨co + p.val % 56, by have h : co + 56 ≤ 58 := inb 2; have := Nat.mod_lt p.val (show 0 < 56 by norm_num); omega⟩ c) := by
  unfold k0_pay8
  rw [flat_apply, View.readAt_eq_ld, harg1.read_unread]
  show x0 _ = x0 _
  refine congrArg x0 (funext fun a => Fin.ext ?_)
  match a with
  | ⟨0, _⟩ => rfl
  | ⟨1, _⟩ => show ro + 1 * (p.val / 56) = ro + p.val / 56; omega
  | ⟨2, _⟩ => show co + 1 * (p.val % 56) = co + p.val % 56; omega
  | ⟨3, _⟩ => show 0 + 1 * c.val = c.val; omega

/-- Column block `off = 3 ki + kj` of the scratch buffer holds the patch matrix's entries when its payload is the
    window at rows `r0 + ki`, columns `kj`. -/
theorem piece_patch (x0 : S1x58x58x256.Idx → EReal) (r0 : ℕ) (hr0 : r0 + 16 ≤ 58) (off ki kj : ℕ)
    (hoff : off = 3 * ki + kj) (hki : ki < 3) (hkj : kj < 3) (P : S784x256.Idx → EReal)
    (inb : ∀ a, (![0, 256 * off] : Fin 2 → ℕ) a + S784x256.size a ≤ S784x2304.size a)
    (h : ∀ (p : Fin 784) (c : Fin 256), P (ix2 p c) = x0 (ix4 (0 : Fin 1)
        ⟨r0 + ki + p.val / 56, by have := p.isLt; omega⟩
        ⟨kj + p.val % 56, by have := Nat.mod_lt p.val (show 0 < 56 by norm_num); omega⟩ c))
    (x : S784x256.Idx) :
    P x = patchRows x0 r0 hr0 ((Rect.unit (s := S784x2304) ![0, 256 * off] S784x256.size inb).emb x) := by
  obtain ⟨p, c, rfl⟩ : ∃ (p : Fin 784) (c : Fin 256), x = ix2 p c := ⟨x 0, x 1, eq_ix2 x⟩
  rw [h p c]
  unfold patchRows
  have hp := p.isLt
  have hc := c.isLt
  have e0 : (((Rect.unit (s := S784x2304) ![0, 256 * off] S784x256.size inb).emb (ix2 p c)) 0).val = p.val := by
    show 0 + 1 * p.val = p.val; omega
  have e1 : (((Rect.unit (s := S784x2304) ![0, 256 * off] S784x256.size inb).emb (ix2 p c)) 1).val = 256 * off + c.val := by
    show 256 * off + 1 * c.val = 256 * off + c.val; omega
  refine congrArg x0 (funext fun a => Fin.ext ?_)
  match a with
  | ⟨0, _⟩ => rfl
  | ⟨1, _⟩ =>
    show r0 + ki + p.val / 56 = r0 + _ / 56 + _ / 256 / 3
    rw [e0, e1]
    have : (256 * off + c.val) / 256 = off := by omega
    rw [this, hoff]; omega
  | ⟨2, _⟩ =>
    show kj + p.val % 56 = _ % 56 + _ / 256 % 3
    rw [e0, e1]
    have : (256 * off + c.val) / 256 = off := by omega
    rw [this, hoff]; omega
  | ⟨3, _⟩ =>
    show c.val = _ % 256
    rw [e1]; omega

set_option maxHeartbeats 1000000 in
/-- The whole scratch buffer, loaded after the nine column-block stores of a tile (and whatever was stored
    before them), is the tile's patch matrix. -/
theorem patch_read (v : View sig .tc .vmem S784x2304 .bf16) (x0 : S1x58x58x256.Idx → EReal) (r0 : ℕ) (hr0 : r0 + 16 ≤ 58)
    (P8 P7 P6 P5 P4 P3 P2 P1 P0 : S784x256.Idx → EReal)
    (i8 : ∀ a, (![0, 2048] : Fin 2 → ℕ) a + S784x256.size a ≤ S784x2304.size a)
    (i7 : ∀ a, (![0, 1792] : Fin 2 → ℕ) a + S784x256.size a ≤ S784x2304.size a)
    (i6 : ∀ a, (![0, 1536] : Fin 2 → ℕ) a + S784x256.size a ≤ S784x2304.size a)
    (i5 : ∀ a, (![0, 1280] : Fin 2 → ℕ) a + S784x256.size a ≤ S784x2304.size a)
    (i4 : ∀ a, (![0, 1024] : Fin 2 → ℕ) a + S784x256.size a ≤ S784x2304.size a)
    (i3 : ∀ a, (![0, 768] : Fin 2 → ℕ) a + S784x256.size a ≤ S784x2304.size a)
    (i2 : ∀ a, (![0, 512] : Fin 2 → ℕ) a + S784x256.size a ≤ S784x2304.size a)
    (i1 : ∀ a, (![0, 256] : Fin 2 → ℕ) a + S784x256.size a ≤ S784x2304.size a)
    (i0 : ∀ a, (![0, 0] : Fin 2 → ℕ) a + S784x256.size a ≤ S784x2304.size a)
    (iW : ∀ a, (![0, 0] : Fin 2 → ℕ) a + S784x2304.size a ≤ S784x2304.size a)
    (L2 : List (View.Piece (Elt Ideal) S784x2304 .bf16))
    (h8 : ∀ (p : Fin 784) (c : Fin 256), P8 (ix2 p c) = x0 (ix4 (0 : Fin 1) ⟨r0 + 2 + p.val / 56, by have := p.isLt; omega⟩ ⟨2 + p.val % 56, by have := Nat.mod_lt p.val (show 0 < 56 by norm_num); omega⟩ c))
    (h7 : ∀ (p : Fin 784) (c : Fin 256), P7 (ix2 p c) = x0 (ix4 (0 : Fin 1) ⟨r0 + 2 + p.val / 56, by have := p.isLt; omega⟩ ⟨1 + p.val % 56, by have := Nat.mod_lt p.val (show 0 < 56 by norm_num); omega⟩ c))
    (h6 : ∀ (p : Fin 784) (c : Fin 256), P6 (ix2 p c) = x0 (ix4 (0 : Fin 1) ⟨r0 + 2 + p.val / 56, by have := p.isLt; omega⟩ ⟨0 + p.val % 56, by have := Nat.mod_lt p.val (show 0 < 56 by norm_num); omega⟩ c))
    (h5 : ∀ (p : Fin 784) (c : Fin 256), P5 (ix2 p c) = x0 (ix4 (0 : Fin 1) ⟨r0 + 1 + p.val / 56, by have := p.isLt; omega⟩ ⟨2 + p.val % 56, by have := Nat.mod_lt p.val (show 0 < 56 by norm_num); omega⟩ c))
    (h4 : ∀ (p : Fin 784) (c : Fin 256), P4 (ix2 p c) = x0 (ix4 (0 : Fin 1) ⟨r0 + 1 + p.val / 56, by have := p.isLt; omega⟩ ⟨1 + p.val % 56, by have := Nat.mod_lt p.val (show 0 < 56 by norm_num); omega⟩ c))
    (h3 : ∀ (p : Fin 784) (c : Fin 256), P3 (ix2 p c) = x0 (ix4 (0 : Fin 1) ⟨r0 + 1 + p.val / 56, by have := p.isLt; omega⟩ ⟨0 + p.val % 56, by have := Nat.mod_lt p.val (show 0 < 56 by norm_num); omega⟩ c))
    (h2 : ∀ (p : Fin 784) (c : Fin 256), P2 (ix2 p c) = x0 (ix4 (0 : Fin 1) ⟨r0 + 0 + p.val / 56, by have := p.isLt; omega⟩ ⟨2 + p.val % 56, by have := Nat.mod_lt p.val (show 0 < 56 by norm_num); omega⟩ c))
    (h1 : ∀ (p : Fin 784) (c : Fin 256), P1 (ix2 p c) = x0 (ix4 (0 : Fin 1) ⟨r0 + 0 + p.val / 56, by have := p.isLt; omega⟩ ⟨1 + p.val % 56, by have := Nat.mod_lt p.val (show 0 < 56 by norm_num); omega⟩ c))
    (h0 : ∀ (p : Fin 784) (c : Fin 256), P0 (ix2 p c) = x0 (ix4 (0 : Fin 1) ⟨r0 + 0 + p.val / 56, by have := p.isLt; omega⟩ ⟨0 + p.val % 56, by have := Nat.mod_lt p.val (show 0 < 56 by norm_num); omega⟩ c)) :
    v.readCov ((⟨Rect.unit (s := S784x2304) ![0, 2048] S784x256.size i8, P8⟩ : View.Piece (Elt Ideal) S784x2304 .bf16)
        :: ⟨Rect.unit (s := S784x2304) ![0, 1792] S784x256.size i7, P7⟩ :: ⟨Rect.unit (s := S784x2304) ![0, 1536] S784x256.size i6, P6⟩
        :: ⟨Rect.unit (s := S784x2304) ![0, 1280] S784x256.size i5, P5⟩ :: ⟨Rect.unit (s := S784x2304) ![0, 1024] S784x256.size i4, P4⟩
        :: ⟨Rect.unit (s := S784x2304) ![0, 768] S784x256.size i3, P3⟩ :: ⟨Rect.unit (s := S784x2304) ![0, 512] S784x256.size i2, P2⟩
        :: ⟨Rect.unit (s := S784x2304) ![0, 256] S784x256.size i1, P1⟩ :: ⟨Rect.unit (s := S784x2304) ![0, 0] S784x256.size i0, P0⟩ :: L2)
      (Rect.unit (s := S784x2304) ![0, 0] S784x2304.size iW).toLoadRect = patchRows x0 r0 hr0 := by
  refine Cert.FirstCover.readCov_whole_of_prefix (Val := Elt Ideal) (S := S784x2304) (e := .bf16) v (patchRows x0 r0 hr0)
    [⟨Rect.unit (s := S784x2304) ![0, 2048] S784x256.size i8, P8⟩, ⟨Rect.unit (s := S784x2304) ![0, 1792] S784x256.size i7, P7⟩,
      ⟨Rect.unit (s := S784x2304) ![0, 1536] S784x256.size i6, P6⟩, ⟨Rect.unit (s := S784x2304) ![0, 1280] S784x256.size i5, P5⟩,
      ⟨Rect.unit (s := S784x2304) ![0, 1024] S784x256.size i4, P4⟩, ⟨Rect.unit (s := S784x2304) ![0, 768] S784x256.size i3, P3⟩,
      ⟨Rect.unit (s := S784x2304) ![0, 512] S784x256.size i2, P2⟩, ⟨Rect.unit (s := S784x2304) ![0, 256] S784x256.size i1, P1⟩,
      ⟨Rect.unit (s := S784x2304) ![0, 0] S784x256.size i0, P0⟩] L2 ?hL ?hcov (funext fun a => by match a with | ⟨0, _⟩ => rfl | ⟨1, _⟩ => rfl) iW
  case hL =>
    intro q hq
    simp only [List.mem_cons, List.mem_nil_iff, or_false] at hq
    rcases hq with rfl | rfl | rfl | rfl | rfl | rfl | rfl | rfl | rfl
    · exact piece_patch x0 r0 hr0 8 2 2 rfl (by norm_num) (by norm_num) P8 i8 h8
    · exact piece_patch x0 r0 hr0 7 2 1 rfl (by norm_num) (by norm_num) P7 i7 h7
    · exact piece_patch x0 r0 hr0 6 2 0 rfl (by norm_num) (by norm_num) P6 i6 h6
    · exact piece_patch x0 r0 hr0 5 1 2 rfl (by norm_num) (by norm_num) P5 i5 h5
    · exact piece_patch x0 r0 hr0 4 1 1 rfl (by norm_num) (by norm_num) P4 i4 h4
    · exact piece_patch x0 r0 hr0 3 1 0 rfl (by norm_num) (by norm_num) P3 i3 h3
    · exact piece_patch x0 r0 hr0 2 0 2 rfl (by norm_num) (by norm_num) P2 i2 h2
    · exact piece_patch x0 r0 hr0 1 0 1 rfl (by norm_num) (by norm_num) P1 i1 h1
    · exact piece_patch x0 r0 hr0 0 0 0 rfl (by norm_num) (by norm_num) P0 i0 h0
  case hcov =>
    intro y
    have hy0 : (y 0).val < 784 := (y 0).isLt
    have hy1 : (y 1).val < 2304 := (y 1).isLt
    have key : ∀ (o : ℕ) (inb : ∀ a, (![0, o] : Fin 2 → ℕ) a + S784x256.size a ≤ S784x2304.size a),
        o ≤ (y 1).val → (y 1).val < o + 256 → y ∈ (Rect.unit (s := S784x2304) ![0, o] S784x256.size inb).set :=
      fun o inb hlo hhi => Rect.mem_set_unit.2 fun a => by
        match a with
        | ⟨0, _⟩ => exact ⟨Nat.zero_le _, by show (y 0).val < 0 + 784; omega⟩
        | ⟨1, _⟩ => exact ⟨hlo, hhi⟩
    by_cases c8 : 2048 ≤ (y 1).val
    · exact ⟨⟨Rect.unit (s := S784x2304) ![0, 2048] S784x256.size i8, P8⟩, by simp only [List.mem_cons, eq_self_iff_true, true_or, or_true], key 2048 i8 c8 (by omega)⟩
    by_cases c7 : 1792 ≤ (y 1).val
    · exact ⟨⟨Rect.unit (s := S784x2304) ![0, 1792] S784x256.size i7, P7⟩, by simp only [List.mem_cons, eq_self_iff_true, true_or, or_true], key 1792 i7 c7 (by omega)⟩
    by_cases c6 : 1536 ≤ (y 1).val
    · exact ⟨⟨Rect.unit (s := S784x2304) ![0, 1536] S784x256.size i6, P6⟩, by simp only [List.mem_cons, eq_self_iff_true, true_or, or_true], key 1536 i6 c6 (by omega)⟩
    by_cases c5 : 1280 ≤ (y 1).val
    · exact ⟨⟨Rect.unit (s := S784x2304) ![0, 1280] S784x256.size i5, P5⟩, by simp only [List.mem_cons, eq_self_iff_true, true_or, or_true], key 1280 i5 c5 (by omega)⟩
    by_cases c4 : 1024 ≤ (y 1).val
    · exact ⟨⟨Rect.unit (s := S784x2304) ![0, 1024] S784x256.size i4, P4⟩, by simp only [List.mem_cons, eq_self_iff_true, true_or, or_true], key 1024 i4 c4 (by omega)⟩
    by_cases c3 : 768 ≤ (y 1).val
    · exact ⟨⟨Rect.unit (s := S784x2304) ![0, 768] S784x256.size i3, P3⟩, by simp only [List.mem_cons, eq_self_iff_true, true_or, or_true], key 768 i3 c3 (by omega)⟩
    by_cases c2 : 512 ≤ (y 1).val
    · exact ⟨⟨Rect.unit (s := S784x2304) ![0, 512] S784x256.size i2, P2⟩, by simp only [List.mem_cons, eq_self_iff_true, true_or, or_true], key 512 i2 c2 (by omega)⟩
    by_cases c1 : 256 ≤ (y 1).val
    · exact ⟨⟨Rect.unit (s := S784x2304) ![0, 256] S784x256.size i1, P1⟩, by simp only [List.mem_cons, eq_self_iff_true, true_or, or_true], key 256 i1 c1 (by omega)⟩
    · exact ⟨⟨Rect.unit (s := S784x2304) ![0, 0] S784x256.size i0, P0⟩, by simp only [List.mem_cons, eq_self_iff_true, true_or, or_true], key 0 i0 (Nat.zero_le _) (by omega)⟩

end Cert.KernelIdeal.PatchValue

end
-- ==== Proof.BodyOut.lean ====
/-
  What one run of the kernel body leaves in its output block.

  At a grid point the body sees one padded image block `x0` ([1, 58, 58, 256]), the permuted weights and
  bias rows `x1 … x6`, and fills its [1, 56, 56, 256] output block in four tiles of 14 image rows.  Entry
  (0, h, w, o) of the block is the gated layer of the specification applied to the offset-major patch of
  pixel (h, w) — padded rows h … h + 2, columns w … w + 2 — whichever tile the row h falls in.
-/
import proofs.«101146_j12000138625349_2_alg».proof.Proof.Gen.KernelIdeal.Frame
import proofs.«101146_j12000138625349_2_alg».proof.Proof.BodyTile
import proofs.«101146_j12000138625349_2_alg».proof.Proof.BodyPatch

set_option maxRecDepth 16384

noncomputable section

namespace Cert.KernelIdeal.BodyValue

open Idealize.ShloMosaic Idealize.ShloMosaic.TcCoe Idealize.ShloMosaic.Tactic Idealize.ShloMosaic.ValueIdx
open Idealize.SL Idealize.SL.Sem
open Cert.KernelIdeal Cert.KernelIdeal.Gen Cert.KernelIdeal.TileValue Cert.KernelIdeal.PatchValue

/-- The output block as a function of the body's seven input blocks. -/
def blockOut (x0 : Vec Ideal S1x58x58x256 .bf16) (x1 : Vec Ideal S2304x256 .bf16) (x2 : Vec Ideal S1x256 .f32)
    (x3 : Vec Ideal S256x2304 .bf16) (x4 : Vec Ideal S1x2304 .f32) (x5 : Vec Ideal S2304x256 .bf16)
    (x6 : Vec Ideal S1x256 .f32) : Vec Ideal S1x56x56x256 .f32 :=
  fun y => Cert.PatchGate.layer
    (fun k : Fin 2304 => x0 (ix4 (0 : Fin 1)
      ⟨(y 1).val + k.val / 256 / 3, by have h1 : (y 1).val < 56 := (y 1).isLt; have := k.isLt; show _ < 58; omega⟩
      ⟨(y 2).val + k.val / 256 % 3, by have h2 : (y 2).val < 56 := (y 2).isLt; show _ < 58; omega⟩
      ⟨k.val % 256, Nat.mod_lt _ (by norm_num)⟩))
    (fun k c => x1 (ix2 k c)) (fun c => x2 (ix2 (0 : Fin 1) c)) (fun c k => x3 (ix2 c k))
    (fun k => x4 (ix2 (0 : Fin 1) k)) (fun k c => x5 (ix2 k c)) (fun c => x6 (ix2 (0 : Fin 1) c))
    (⟨(y 3).val, (y 3).isLt⟩ : Fin 256)

theorem hz2 : (![0, 0] : Fin 2 → ℕ) = fun _ => 0 := funext fun a => by match a with | ⟨0, _⟩ => rfl | ⟨1, _⟩ => rfl

/-! The weights and bias rows are loaded whole, once, and used by every tile. -/
theorem pay2_load (a : Memref sig .tc .vmem S1x256 .f32) (ha : a.IsWhole) (x : Vec Ideal S1x256 .f32)
    (inb : ∀ i, (![0, 0] : Fin 2 → ℕ) i + S1x256.size i ≤ S1x256.size i) :
    k0_pay2 (F := Ideal) (View.readAt (Elt Ideal) a.view (Rect.unit (s := S1x256) ![0, 0] S1x256.size inb).toLoadRect (ha.unread x)) = x := by
  unfold k0_pay2
  rw [shapeCast_self, View.readAt_eq_ld, ha.read_unread, View.ld_unit_zero hz2]
theorem pay3_load (a : Memref sig .tc .vmem S1x2304 .f32) (ha : a.IsWhole) (x : Vec Ideal S1x2304 .f32)
    (inb : ∀ i, (![0, 0] : Fin 2 → ℕ) i + S1x2304.size i ≤ S1x2304.size i) :
    k0_pay3 (F := Ideal) (View.readAt (Elt Ideal) a.view (Rect.unit (s := S1x2304) ![0, 0] S1x2304.size inb).toLoadRect (ha.unread x)) = x := by
  unfold k0_pay3
  rw [shapeCast_self, View.readAt_eq_ld, ha.read_unread, View.ld_unit_zero hz2]
theorem pay4_load (a : Memref sig .tc .vmem S1x256 .f32) (ha : a.IsWhole) (x : Vec Ideal S1x256 .f32)
    (inb : ∀ i, (![0, 0] : Fin 2 → ℕ) i + S1x256.size i ≤ S1x256.size i) :
    k0_pay4 (F := Ideal) (View.readAt (Elt Ideal) a.view (Rect.unit (s := S1x256) ![0, 0] S1x256.size inb).toLoadRect (ha.unread x)) = x := by
  unfold k0_pay4
  rw [shapeCast_self, View.readAt_eq_ld, ha.read_unread, View.ld_unit_zero hz2]
theorem pay5_load (a : Memref sig .tc .vmem S2304x256 .bf16) (ha : a.IsWhole) (x : Vec Ideal S2304x256 .bf16)
    (inb : ∀ i, (![0, 0] : Fin 2 → ℕ) i + S2304x256.size i ≤ S2304x256.size i) :
    k0_pay5 (F := Ideal) (View.readAt (Elt Ideal) a.view (Rect.unit (s := S2304x256) ![0, 0] S2304x256.size inb).toLoadRect (ha.unread x)) = x := by
  unfold k0_pay5
  rw [shapeCast_self, View.readAt_eq_ld, ha.read_unread, View.ld_unit_zero hz2]
theorem pay6_load (a : Memref sig .tc .vmem S256x2304 .bf16) (ha : a.IsWhole) (x : Vec Ideal S256x2304 .bf16)
    (inb : ∀ i, (![0, 0] : Fin 2 → ℕ) i + S256x2304.size i ≤ S256x2304.size i) :
    k0_pay6 (F := Ideal) (View.readAt (Elt Ideal) a.view (Rect.unit (s := S256x2304) ![0, 0] S256x2304.size inb).toLoadRect (ha.unread x)) = x := by
  unfold k0_pay6
  rw [shapeCast_self, View.readAt_eq_ld, ha.read_unread, View.ld_unit_zero hz2]
theorem pay7_load (a : Memref sig .tc .vmem S2304x256 .bf16) (ha : a.IsWhole) (x : Vec Ideal S2304x256 .bf16)
    (inb : ∀ i, (![0, 0] : Fin 2 → ℕ) i + S2304x256.size i ≤ S2304x256.size i) :
    k0_pay7 (F := Ideal) (View.readAt (Elt Ideal) a.view (Rect.unit (s := S2304x256) ![0, 0] S2304x256.size inb).toLoadRect (ha.unread x)) = x := by
  unfold k0_pay7
  rw [shapeCast_self, View.readAt_eq_ld, ha.read_unread, View.ld_unit_zero hz2]

/-- One tile's store: the layer on the tile's patch matrix, at the block index its rectangle names. -/
theorem tile_piece (x0 : Vec Ideal S1x58x58x256 .bf16) (x1 : Vec Ideal S2304x256 .bf16) (x2 : Vec Ideal S1x256 .f32)
    (x3 : Vec Ideal S256x2304 .bf16) (x4 : Vec Ideal S1x2304 .f32) (x5 : Vec Ideal S2304x256 .bf16)
    (x6 : Vec Ideal S1x256 .f32) (r0 : ℕ) (hr0 : r0 + 16 ≤ 58)
    (inb : ∀ a, (![0, r0, 0, 0] : Fin 4 → ℕ) a + S1x14x56x256.size a ≤ S1x56x56x256.size a) (x : S1x14x56x256.Idx) :
    k0_pay18 (F := Ideal) x2 x4 x6 x1 x3 x5 (patchRows x0 r0 hr0) x
      = blockOut x0 x1 x2 x3 x4 x5 x6 ((Rect.unit (s := S1x56x56x256) ![0, r0, 0, 0] S1x14x56x256.size inb).emb x) := by
  obtain ⟨u, r, w, o, rfl⟩ : ∃ (u : Fin 1) (r : Fin 14) (w : Fin 56) (o : Fin 256), x = ix4 u r w o :=
    ⟨x 0, x 1, x 2, x 3, eq_ix4 x⟩
  obtain rfl : u = 0 := Subsingleton.elim _ _
  rw [tile_apply]
  unfold blockOut
  have hr := r.isLt
  have hw := w.isLt
  refine congr (congrArg (fun a => Cert.PatchGate.layer a _ _ _ _ _ _) (funext fun k => ?_)) (Fin.ext ?_)
  · unfold patchRows
    refine congrArg x0 (funext fun a => Fin.ext ?_)
    match a with
    | ⟨0, _⟩ => rfl
    | ⟨1, _⟩ =>
      show r0 + (r.val * 56 + w.val) / 56 + k.val / 256 / 3 = (r0 + 1 * r.val) + k.val / 256 / 3
      omega
    | ⟨2, _⟩ =>
      show (r.val * 56 + w.val) % 56 + k.val / 256 % 3 = (0 + 1 * w.val) + k.val / 256 % 3
      omega
    | ⟨3, _⟩ => rfl
  · show o.val = 0 + 1 * o.val
    omega

set_option maxHeartbeats 4000000 in
/-- The body's four stores leave exactly that block. -/
theorem out_block (c : Dev nD) (i : grid0.Coords) (arg1 : Memref sig .tc .vmem S1x58x58x256 .bf16) (harg1 : arg1.IsWhole) (arg2 : Memref sig .tc .vmem S2304x256 .bf16) (harg2 : arg2.IsWhole) (arg3 : Memref sig .tc .vmem S1x256 .f32) (harg3 : arg3.IsWhole) (arg4 : Memref sig .tc .vmem S256x2304 .bf16) (harg4 : arg4.IsWhole) (arg5 : Memref sig .tc .vmem S1x2304 .f32) (harg5 : arg5.IsWhole) (arg6 : Memref sig .tc .vmem S2304x256 .bf16) (harg6 : arg6.IsWhole) (arg7 : Memref sig .tc .vmem S1x256 .f32) (harg7 : arg7.IsWhole) (arg8 : Memref sig .tc .vmem S1x56x56x256 .f32) (harg8 : arg8.IsWhole) (arg9 : Memref sig .tc .vmem S784x2304 .bf16) (harg9 : arg9.IsWhole)
    (x0 : Vec Ideal S1x58x58x256 .bf16) (x1 : Vec Ideal S2304x256 .bf16) (x2 : Vec Ideal S1x256 .f32) (x3 : Vec Ideal S256x2304 .bf16) (x4 : Vec Ideal S1x2304 .f32) (x5 : Vec Ideal S2304x256 .bf16) (x6 : Vec Ideal S1x256 .f32) :
    out0_A_7 (F := Ideal) c i arg1 harg1 arg2 harg2 arg3 harg3 arg4 harg4 arg5 harg5 arg6 harg6 arg7 harg7 arg8 harg8 arg9 harg9 x0 x1 x2 x3 x4 x5 x6 = blockOut x0 x1 x2 x3 x4 x5 x6 := by
  unfold out0_A_7
  rw [View.read_writes_eq_canon _ _ _ (cover0_A_7 c i arg1 harg1 arg2 harg2 arg3 harg3 arg4 harg4 arg5 harg5 arg6 harg6 arg7 harg7 arg8 harg8 arg9 harg9 x0 x1 x2 x3 x4 x5 x6)]
  funext y
  refine View.canon_apply_of_pieces (Val := Elt Ideal) (blockOut x0 x1 x2 x3 x4 x5 x6) _ ?_ y (cover0_A_7 c i arg1 harg1 arg2 harg2 arg3 harg3 arg4 harg4 arg5 harg5 arg6 harg6 arg7 harg7 arg8 harg8 arg9 harg9 x0 x1 x2 x3 x4 x5 x6 y)
  unfold kernelRun0_A
  dsimp only
  sl_unfold_words
  intro q hq
  simp only [List.mem_cons, List.mem_nil_iff, or_false] at hq
  rcases hq with rfl | rfl | rfl | rfl
  · -- rows 42 … 55
    intro x
    show _ = blockOut x0 x1 x2 x3 x4 x5 x6 ((Rect.unit (s := S1x56x56x256) ![0, 42, 0, 0] S1x14x56x256.size inb_S1x56x56x256_S1x14x56x256_0_42_0_0).emb x)
    refine Eq.trans (congrArg (fun XC => k0_pay1 _ _ XC (k0_pay53 _ _ _ XC) _ x) (patch_read arg9.view x0 42 (by norm_num) _ _ _ _ _ _ _ _ _ _ _ _ _ _ _ _ _ _ _ _
      (fun p c => window_apply x0 arg1 harg1 44 2 _ p c) (fun p c => window_apply x0 arg1 harg1 44 1 _ p c) (fun p c => window_apply x0 arg1 harg1 44 0 _ p c)
      (fun p c => window_apply x0 arg1 harg1 43 2 _ p c) (fun p c => window_apply x0 arg1 harg1 43 1 _ p c) (fun p c => window_apply x0 arg1 harg1 43 0 _ p c)
      (fun p c => window_apply x0 arg1 harg1 42 2 _ p c) (fun p c => window_apply x0 arg1 harg1 42 1 _ p c) (fun p c => window_apply x0 arg1 harg1 42 0 _ p c))) ?_
    dsimp only
    rw [pay2_load, pay3_load, pay4_load, pay5_load, pay6_load, pay7_load, pay1_eq]
    exact tile_piece x0 x1 x2 x3 x4 x5 x6 42 (by norm_num) _ x
  · -- rows 28 … 41
    intro x
    show _ = blockOut x0 x1 x2 x3 x4 x5 x6 ((Rect.unit (s := S1x56x56x256) ![0, 28, 0, 0] S1x14x56x256.size inb_S1x56x56x256_S1x14x56x256_0_28_0_0).emb x)
    refine Eq.trans (congrArg (fun XC => k0_pay41 _ _ _ _ _ _ XC x) (patch_read arg9.view x0 28 (by norm_num) _ _ _ _ _ _ _ _ _ _ _ _ _ _ _ _ _ _ _ _
      (fun p c => window_apply x0 arg1 harg1 30 2 _ p c) (fun p c => window_apply x0 arg1 harg1 30 1 _ p c) (fun p c => window_apply x0 arg1 harg1 30 0 _ p c)
      (fun p c => window_apply x0 arg1 harg1 29 2 _ p c) (fun p c => window_apply x0 arg1 harg1 29 1 _ p c) (fun p c => window_apply x0 arg1 harg1 29 0 _ p c)
      (fun p c => window_apply x0 arg1 harg1 28 2 _ p c) (fun p c => window_apply x0 arg1 harg1 28 1 _ p c) (fun p c => window_apply x0 arg1 harg1 28 0 _ p c))) ?_
    dsimp only
    rw [pay2_load, pay3_load, pay4_load, pay5_load, pay6_load, pay7_load, pay41_eq]
    exact tile_piece x0 x1 x2 x3 x4 x5 x6 28 (by norm_num) _ x
  · -- rows 14 … 27
    intro x
    show _ = blockOut x0 x1 x2 x3 x4 x5 x6 ((Rect.unit (s := S1x56x56x256) ![0, 14, 0, 0] S1x14x56x256.size inb_S1x56x56x256_S1x14x56x256_0_14_0_0).emb x)
    refine Eq.trans (congrArg (fun XC => k0_pay30 _ _ _ _ XC (k0_pay29 _ _ XC) x) (patch_read arg9.view x0 14 (by norm_num) _ _ _ _ _ _ _ _ _ _ _ _ _ _ _ _ _ _ _ _
      (fun p c => window_apply x0 arg1 harg1 16 2 _ p c) (fun p c => window_apply x0 arg1 harg1 16 1 _ p c) (fun p c => window_apply x0 arg1 harg1 16 0 _ p c)
      (fun p c => window_apply x0 arg1 harg1 15 2 _ p c) (fun p c => window_apply x0 arg1 harg1 15 1 _ p c) (fun p c => window_apply x0 arg1 harg1 15 0 _ p c)
      (fun p c => window_apply x0 arg1 harg1 14 2 _ p c) (fun p c => window_apply x0 arg1 harg1 14 1 _ p c) (fun p c => window_apply x0 arg1 harg1 14 0 _ p c))) ?_
    dsimp only
    rw [pay2_load, pay3_load, pay4_load, pay5_load, pay6_load, pay7_load, pay30_eq]
    exact tile_piece x0 x1 x2 x3 x4 x5 x6 14 (by norm_num) _ x
  · -- rows 0 … 13
    intro x
    show _ = blockOut x0 x1 x2 x3 x4 x5 x6 ((Rect.unit (s := S1x56x56x256) ![0, 0, 0, 0] S1x14x56x256.size inb_S1x56x56x256_S1x14x56x256_0_0_0_0).emb x)
    refine Eq.trans (congrArg (fun XC => k0_pay18 _ _ _ _ _ _ XC x) (patch_read arg9.view x0 0 (by norm_num) _ _ _ _ _ _ _ _ _ _ _ _ _ _ _ _ _ _ _ _
      (fun p c => window_apply x0 arg1 harg1 2 2 _ p c) (fun p c => window_apply x0 arg1 harg1 2 1 _ p c) (fun p c => window_apply x0 arg1 harg1 2 0 _ p c)
      (fun p c => window_apply x0 arg1 harg1 1 2 _ p c) (fun p c => window_apply x0 arg1 harg1 1 1 _ p c) (fun p c => window_apply x0 arg1 harg1 1 0 _ p c)
      (fun p c => window_apply x0 arg1 harg1 0 2 _ p c) (fun p c => window_apply x0 arg1 harg1 0 1 _ p c) (fun p c => window_apply x0 arg1 harg1 0 0 _ p c))) ?_
    dsimp only
    rw [pay2_load, pay3_load, pay4_load, pay5_load, pay6_load, pay7_load]
    exact tile_piece x0 x1 x2 x3 x4 x5 x6 0 (by norm_num) _ x

end Cert.KernelIdeal.BodyValue

end
-- ==== Proof.KernelArray.lean ====
/-
  From the body's output block to the whole result array of the fused region.

  The region runs the body once per image: grid point t is handed image t of the zero-padded, channels-last
  input (one [1, 58, 58, 256] block) and the six renumbered weight and bias arrays whole, and writes image t of
  the [8, 56, 56, 256] result.  The body leaves in its output block, at entry (0, h, w, o), the gated layer on the
  offset-major patch of pixel (h, w); with the weights renumbered offset-major this is the specification's
  `Cert.PatchGate.result` at image t, pixel 56 * h + w, channel o (`Cert.PatchGate.result_offsetMajor`; the pixel
  56 * h + w has row (56 * h + w) / 56 = h and column (56 * h + w) % 56 = w because w < 56).  So every point writes
  back its block of one function `G` of the arguments, the eight blocks cover the array, and the array ends
  holding `G`.
-/
import proofs.«101146_j12000138625349_2_alg».proof.Proof.KernelHost
import proofs.«101146_j12000138625349_2_alg».proof.Proof.BodyOut
import proofs.«101146_j12000138625349_2_alg».proof.Proof.Spec
import Idealize.ShloMosaic.Lib.Pipeline.Value
import Idealize.ShloMosaic.Lib.Tactic

set_option maxRecDepth 16384

noncomputable section

namespace Cert.KernelIdeal.ArrayValue

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.HostValue Cert.KernelIdeal.BodyValue

variable (m : (ℓ : Loc nD τ sig) → Buf (Elt Ideal) ℓ) (c : Dev nD)

/-! ## The input blocks at a grid point -/

/-- The printed index maps, decided once over the grid: point `t` reads image `t` of the padded input and writes
    image `t` of the result; every other window is its whole array. -/
theorem idx_facts : ∀ t : Fin cfg0.N,
    (win0_0.index t (0 : Fin 4) = t.val ∧ win0_0.index t (1 : Fin 4) = 0 ∧ win0_0.index t (2 : Fin 4) = 0 ∧ win0_0.index t (3 : Fin 4) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 4) = t.val ∧ win0_7.index t (1 : Fin 4) = 0 ∧ win0_7.index t (2 : Fin 4) = 0 ∧ win0_7.index t (3 : Fin 4) = 0) :=
  (by decide +kernel : ∀ t : Fin grid0.N, _)

/-- The image a grid point works on. -/
abbrev img (t : Fin cfg0.N) : Fin 8 := ⟨t.val, by have := t.isLt; have h : cfg0.N = 8 := N_0; omega⟩

/-- The first input block at point `t` is image `t` of the padded input. -/
theorem iblk0_apply (t : Fin cfg0.N) (u : Fin 1) (r w : Fin 58) (ch : Fin 256) :
    @Eq EReal ((iblk m c 0 t : Vec Ideal S1x58x58x256 .bf16) (ix4 u r w ch))
      ((V m c main_v2 : FVec Ideal S8x58x58x256 .bf16) (ix4 (img t) r w ch)) := by
  obtain ⟨⟨e0, e1, e2, e3⟩, -⟩ := idx_facts t
  have hu : u.val = 0 := by omega
  unfold iblk
  rw [View.read_apply]
  show V m c main_v2 (((cfg0.win 0).blk t).view.emb (ix4 u r w ch)) = V m c main_v2 (ix4 (img t) r w ch)
  refine congrArg _ (funext fun a => Fin.ext ?_)
  match a with
  | ⟨0, _⟩ => show win0_0.index t (0 : Fin 4) * 1 + 1 * u.val = t.val; rw [e0]; omega
  | ⟨1, _⟩ => show win0_0.index t (1 : Fin 4) * 58 + 1 * r.val = r.val; rw [e1]; omega
  | ⟨2, _⟩ => show win0_0.index t (2 : Fin 4) * 58 + 1 * w.val = w.val; rw [e2]; omega
  | ⟨3, _⟩ => show win0_0.index t (3 : Fin 4) * 256 + 1 * ch.val = ch.val; rw [e3]; omega

/-- Every other input block is its whole array, at every point. -/
theorem iblk1_eq (t : Fin cfg0.N) : @Eq (FVec Ideal S2304x256 .bf16) (iblk m c 1 t) (V m c main_v6) := by
  obtain ⟨-, ⟨e0, e1⟩, -⟩ := idx_facts t
  funext y
  unfold iblk
  rw [View.read_apply]
  show V m c main_v6 (((cfg0.win 1).blk t).view.emb y) = V m c main_v6 y
  refine congrArg _ (funext fun a => Fin.ext ?_)
  match a with
  | ⟨0, _⟩ => show win0_1.index t (0 : Fin 2) * 2304 + 1 * (y 0).val = (y 0).val; rw [e0]; omega
  | ⟨1, _⟩ => show win0_1.index t (1 : Fin 2) * 256 + 1 * (y 1).val = (y 1).val; rw [e1]; omega

theorem iblk2_eq (t : Fin cfg0.N) : @Eq (FVec Ideal S1x256 .f32) (iblk m c 2 t) (V m c main_v18) := by
  obtain ⟨-, -, ⟨e0, e1⟩, -⟩ := idx_facts t
  funext y
  unfold iblk
  rw [View.read_apply]
  show V m c main_v18 (((cfg0.win 2).blk t).view.emb y) = V m c main_v18 y
  refine congrArg _ (funext fun a => Fin.ext ?_)
  match a with
  | ⟨0, _⟩ => show win0_2.index t (0 : Fin 2) * 1 + 1 * (y 0).val = (y 0).val; rw [e0]; omega
  | ⟨1, _⟩ => show win0_2.index t (1 : Fin 2) * 256 + 1 * (y 1).val = (y 1).val; rw [e1]; omega

theorem iblk3_eq (t : Fin cfg0.N) : @Eq (FVec Ideal S256x2304 .bf16) (iblk m c 3 t) (V m c main_v14) := by
  obtain ⟨-, -, -, ⟨e0, e1⟩, -⟩ := idx_facts t
  funext y
  unfold iblk
  rw [View.read_apply]
  show V m c main_v14 (((cfg0.win 3).blk t).view.emb y) = V m c main_v14 y
  refine congrArg _ (funext fun a => Fin.ext ?_)
  match a with
  | ⟨0, _⟩ => show win0_3.index t (0 : Fin 2) * 256 + 1 * (y 0).val = (y 0).val; rw [e0]; omega
  | ⟨1, _⟩ => show win0_3.index t (1 : Fin 2) * 2304 + 1 * (y 1).val = (y 1).val; rw [e1]; omega

theorem iblk4_eq (t : Fin cfg0.N) : @Eq (FVec Ideal S1x2304 .f32) (iblk m c 4 t) (V m c main_v17) := by
  obtain ⟨-, -, -, -, ⟨e0, e1⟩, -⟩ := idx_facts t
  funext y
  unfold iblk
  rw [View.read_apply]
  show V m c main_v17 (((cfg0.win 4).blk t).view.emb y) = V m c main_v17 y
  refine congrArg _ (funext fun a => Fin.ext ?_)
  match a with
  | ⟨0, _⟩ => show win0_4.index t (0 : Fin 2) * 1 + 1 * (y 0).val = (y 0).val; rw [e0]; omega
  | ⟨1, _⟩ => show win0_4.index t (1 : Fin 2) * 2304 + 1 * (y 1).val = (y 1).val; rw [e1]; omega

theorem iblk5_eq (t : Fin cfg0.N) : @Eq (FVec Ideal S2304x256 .bf16) (iblk m c 5 t) (V m c main_v10) := by
  obtain ⟨-, -, -, -, -, ⟨e0, e1⟩, -⟩ := idx_facts t
  funext y
  unfold iblk
  rw [View.read_apply]
  show V m c main_v10 (((cfg0.win 5).blk t).view.emb y) = V m c main_v10 y
  refine congrArg _ (funext fun a => Fin.ext ?_)
  match a with
  | ⟨0, _⟩ => show win0_5.index t (0 : Fin 2) * 2304 + 1 * (y 0).val = (y 0).val; rw [e0]; omega
  | ⟨1, _⟩ => show win0_5.index t (1 : Fin 2) * 256 + 1 * (y 1).val = (y 1).val; rw [e1]; omega

theorem iblk6_eq (t : Fin cfg0.N) : @Eq (FVec Ideal S1x256 .f32) (iblk m c 6 t) (V m c main_v19) := by
  obtain ⟨-, -, -, -, -, -, ⟨e0, e1⟩, -⟩ := idx_facts t
  funext y
  unfold iblk
  rw [View.read_apply]
  show V m c main_v19 (((cfg0.win 6).blk t).view.emb y) = V m c main_v19 y
  refine congrArg _ (funext fun a => Fin.ext ?_)
  match a with
  | ⟨0, _⟩ => show win0_6.index t (0 : Fin 2) * 1 + 1 * (y 0).val = (y 0).val; rw [e0]; omega
  | ⟨1, _⟩ => show win0_6.index t (1 : Fin 2) * 256 + 1 * (y 1).val = (y 1).val; rw [e1]; omega

/-! ## What a grid point writes back -/

/-- The seven arguments read by coordinates, as the specification takes them. -/
abbrev specX : Fin 8 → Fin 256 → Fin 56 → Fin 56 → EReal := fun b ch r w => argX m c (ix4 b ch r w)
abbrev specW1 : Fin 2304 → Fin 256 → EReal := fun d o => argW1 m c (ix2 d o)
abbrev specB1 : Fin 256 → EReal := fun o => argB1 m c (ix1 o)
abbrev specW2 : Fin 256 → Fin 2304 → EReal := fun o d => argW2 m c (ix2 o d)
abbrev specB2 : Fin 2304 → EReal := fun d => argB2 m c (ix1 d)
abbrev specW3 : Fin 2304 → Fin 256 → EReal := fun d o => argW3 m c (ix2 d o)
abbrev specB3 : Fin 256 → EReal := fun o => argB3 m c (ix1 o)

/-- The whole result array of the region: entry `(b, h, w, o)` is the specification's value at image `b`, pixel
    `56 * h + w`, channel `o`. -/
def G : FVec Ideal S8x56x56x256 .f32 := fun j =>
  Cert.PatchGate.result (specX m c) (specW1 m c) (specB1 m c) (specW2 m c) (specB2 m c) (specW3 m c) (specB3 m c)
    (⟨(j 0).val, (j 0).isLt⟩ : Fin 8)
    (⟨(j 1).val * 56 + (j 2).val, by
      have h1 : (j 1).val < 56 := (j 1).isLt
      have h2 : (j 2).val < 56 := (j 2).isLt
      omega⟩ : Fin 3136)
    (⟨(j 3).val, (j 3).isLt⟩ : Fin 256)

/-- The layer depends on its operands only through their values. -/
theorem layer_congr {K C : Type} [Fintype K] [Fintype C] {a a' : K → EReal} {w1 w1' : K → C → EReal} {b1 b1' : C → EReal}
    {w2 w2' : C → K → EReal} {b2 b2' : K → EReal} {w3 w3' : K → C → EReal} {b3 b3' : C → EReal}
    (ha : ∀ k, a k = a' k) (h1 : ∀ k o, w1 k o = w1' k o) (hb1 : ∀ o, b1 o = b1' o) (h2 : ∀ o k, w2 o k = w2' o k)
    (hb2 : ∀ k, b2 k = b2' k) (h3 : ∀ k o, w3 k o = w3' k o) (hb3 : ∀ o, b3 o = b3' o) (o : C) :
    Cert.PatchGate.layer a w1 b1 w2 b2 w3 b3 o = Cert.PatchGate.layer a' w1' b1' w2' b2' w3' b3' o := by
  obtain rfl : a = a' := funext ha
  obtain rfl : w1 = w1' := funext fun k => funext (h1 k)
  obtain rfl : b1 = b1' := funext hb1
  obtain rfl : w2 = w2' := funext fun k => funext (h2 k)
  obtain rfl : b2 = b2' := funext hb2
  obtain rfl : w3 = w3' := funext fun k => funext (h3 k)
  obtain rfl : b3 = b3' := funext hb3
  rfl

/-- One output block, entry by entry: when the body's seven input blocks are image `tb` of the padded input and the
    renumbered weights, entry `(0, h, w, o)` of the block it leaves is `G` at `(tb, h, w, o)`. -/
theorem block_value (tb : Fin 8) (x0 : Vec Ideal S1x58x58x256 .bf16) (x1 : Vec Ideal S2304x256 .bf16) (x2 : Vec Ideal S1x256 .f32)
    (x3 : Vec Ideal S256x2304 .bf16) (x4 : Vec Ideal S1x2304 .f32) (x5 : Vec Ideal S2304x256 .bf16) (x6 : Vec Ideal S1x256 .f32)
    (h0 : ∀ (u : Fin 1) (r w : Fin 58) (ch : Fin 256), x0 (ix4 u r w ch) = (V m c main_v2 : FVec Ideal S8x58x58x256 .bf16) (ix4 tb r w ch))
    (h1 : x1 = (V m c main_v6 : FVec Ideal S2304x256 .bf16)) (h2 : x2 = (V m c main_v18 : FVec Ideal S1x256 .f32))
    (h3 : x3 = (V m c main_v14 : FVec Ideal S256x2304 .bf16)) (h4 : x4 = (V m c main_v17 : FVec Ideal S1x2304 .f32))
    (h5 : x5 = (V m c main_v10 : FVec Ideal S2304x256 .bf16)) (h6 : x6 = (V m c main_v19 : FVec Ideal S1x256 .f32))
    (u : Fin 1) (h w : Fin 56) (o : Fin 256) :
    blockOut x0 x1 x2 x3 x4 x5 x6 (ix4 u h w o) = G m c (ix4 tb h w o) := by
  subst h1 h2 h3 h4 h5 h6
  have hh := h.isLt
  have hw := w.isLt
  have hl : h.val * 56 + w.val < 3136 := by omega
  unfold blockOut G
  show Cert.PatchGate.layer _ _ _ _ _ _ _ (⟨o.val, _⟩ : Fin 256)
    = Cert.PatchGate.result (specX m c) (specW1 m c) (specB1 m c) (specW2 m c) (specB2 m c) (specW3 m c) (specB3 m c)
        (⟨tb.val, _⟩ : Fin 8) (⟨h.val * 56 + w.val, hl⟩ : Fin 3136) (⟨o.val, _⟩ : Fin 256)
  rw [← Cert.PatchGate.result_offsetMajor]
  refine layer_congr (fun k => ?_) (fun k o' => v6_apply m c k o') (fun o' => v18_apply m c 0 o')
    (fun o' k => v14_apply m c o' k) (fun k => v17_apply m c 0 k) (fun k o' => v10_apply m c k o') (fun o' => v19_apply m c 0 o') _
  have hk := k.isLt
  refine (h0 _ _ _ _).trans ((v2_apply m c tb _ _ _).trans ?_)
  unfold Cert.PatchGate.patchOffsetMajor
  refine Cert.PatchGate.padded_congr _ _ rfl ?_ ?_
  · show h.val + k.val / 256 / 3 = (h.val * 56 + w.val) / 56 + k.val / 256 / 3
    omega
  · show w.val + k.val / 256 % 3 = (h.val * 56 + w.val) % 56 + k.val / 256 % 3
    omega

/-- WHAT POINT `t` WRITES BACK is block `t` of `G`. -/
theorem flushed_eq (t : Fin cfg0.N) :
    (dats m 0 c).flushed 7 t = ((cfg0.win 7).blk t).view.read (Elt Ideal) (G m c) := by
  obtain ⟨-, -, -, -, -, -, -, ⟨e0, e1, e2, e3⟩⟩ := idx_facts t
  show (cfg0.win 7).cut (grid0.coords t) ((dats m 0 c).after 7 t) = _
  rw [after0_7]
  unfold outsAt0
  rw [out_block c (grid0.coords t) (ms0_0 t) (hs0_0 t) (ms0_1 t) (hs0_1 t) (ms0_2 t) (hs0_2 t) (ms0_3 t) (hs0_3 t)
    (ms0_4 t) (hs0_4 t) (ms0_5 t) (hs0_5 t) (ms0_6 t) (hs0_6 t) (ms0_7 t) (hs0_7 t) scM0_0 (Memref.isWhole_whole _)
    (iblk m c 0 t) (iblk m c 1 t) (iblk m c 2 t) (iblk m c 3 t) (iblk m c 4 t) (iblk m c 5 t) (iblk m c 6 t)]
  funext y
  obtain ⟨u, h, w, o, rfl⟩ : ∃ (u : Fin 1) (h w : Fin 56) (o : Fin 256), y = ix4 u h w o := ⟨y 0, y 1, y 2, y 3, eq_ix4 y⟩
  have hu : u.val = 0 := by omega
  have hx : (cfg0.win 7).xinj (grid0.coords t) (ix4 u h w o) = (ix4 u h w o : S1x56x56x256.Idx) := funext fun a => Fin.ext rfl
  have he : ((cfg0.win 7).blk t).view.emb (ix4 u h w o) = (ix4 (img t) h w o : S8x56x56x256.Idx) := by
    funext a
    apply Fin.ext
    match a with
    | ⟨0, _⟩ => show win0_7.index t (0 : Fin 4) * 1 + 1 * u.val = t.val; rw [e0]; omega
    | ⟨1, _⟩ => show win0_7.index t (1 : Fin 4) * 56 + 1 * h.val = h.val; rw [e1]; omega
    | ⟨2, _⟩ => show win0_7.index t (2 : Fin 4) * 56 + 1 * w.val = w.val; rw [e2]; omega
    | ⟨3, _⟩ => show win0_7.index t (3 : Fin 4) * 256 + 1 * o.val = o.val; rw [e3]; omega
  rw [View.read_apply]
  show blockOut (iblk m c 0 t) (iblk m c 1 t) (iblk m c 2 t) (iblk m c 3 t) (iblk m c 4 t) (iblk m c 5 t) (iblk m c 6 t)
      ((cfg0.win 7).xinj (grid0.coords t) (ix4 u h w o)) = G m c (((cfg0.win 7).blk t).view.emb (ix4 u h w o))
  refine (congrArg _ hx).trans (Eq.trans ?_ (congrArg (G m c) he).symm)
  exact block_value m c (img t) (iblk m c 0 t) (iblk m c 1 t) (iblk m c 2 t) (iblk m c 3 t) (iblk m c 4 t) (iblk m c 5 t)
    (iblk m c 6 t) (fun u r w ch => iblk0_apply m c t u r w ch) (iblk1_eq m c t) (iblk2_eq m c t) (iblk3_eq m c t)
    (iblk4_eq m c t) (iblk5_eq m c t) (iblk6_eq m c t) u h w o

/-! ## The whole result array -/

/-- An index of the array is in point `t`'s block iff each coordinate is in the block's range on its axis. -/
theorem mem_blk (t : Fin cfg0.N) (i : S8x56x56x256.Idx) :
    i ∈ ((cfg0.win 7).blk t).view.set ↔ ∀ a : Fin 4, win0_7.index t a * S1x56x56x256.size a ≤ (i a).val
      ∧ (i a).val < win0_7.index t a * S1x56x56x256.size a + S1x56x56x256.size a := by
  show i ∈ ((View.whole main_v20).slice (win0_7.rect t)).set ↔ _
  rw [View.set_slice_whole, Rect.mem_set_unit]
  exact Iff.rfl

/-- Every index of the result array lies in the block of the point that works on its image. -/
theorem cover (i : S8x56x56x256.Idx) :
    ∃ t : Fin cfg0.N, (cfg0.win 7).flush t = true ∧ i ∈ ((cfg0.win 7).blk t).view.set := by
  have hN : cfg0.N = 8 := N_0
  have h0 : (i 0).val < 8 := (i 0).isLt
  have h1 : (i 1).val < 56 := (i 1).isLt
  have h2 : (i 2).val < 56 := (i 2).isLt
  have h3 : (i 3).val < 256 := (i 3).isLt
  obtain ⟨t, ht⟩ : ∃ t : Fin cfg0.N, t.val = (i 0).val := ⟨⟨(i 0).val, by omega⟩, rfl⟩
  obtain ⟨-, -, -, -, -, -, -, ⟨e0, e1, e2, e3⟩⟩ := idx_facts t
  refine ⟨t, flush0_7 t, ?_⟩
  rw [mem_blk]
  intro a
  match a with
  | ⟨0, _⟩ => show win0_7.index t (0 : Fin 4) * 1 ≤ (i 0).val ∧ (i 0).val < win0_7.index t (0 : Fin 4) * 1 + 1; rw [e0]; omega
  | ⟨1, _⟩ => show win0_7.index t (1 : Fin 4) * 56 ≤ (i 1).val ∧ (i 1).val < win0_7.index t (1 : Fin 4) * 56 + 56; rw [e1]; omega
  | ⟨2, _⟩ => show win0_7.index t (2 : Fin 4) * 56 ≤ (i 2).val ∧ (i 2).val < win0_7.index t (2 : Fin 4) * 56 + 56; rw [e2]; omega
  | ⟨3, _⟩ => show win0_7.index t (3 : Fin 4) * 256 ≤ (i 3).val ∧ (i 3).val < win0_7.index t (3 : Fin 4) * 256 + 256; rw [e3]; omega

/-- THE ARRAY after the region: `G`, everywhere. -/
theorem final : (dats m 0 c).arrAt 7 cfg0.N = G m c :=
  (dats m 0 c).arrAt_eq_of_cover 7 (G m c) (fun t _ => flushed_eq m c t) (fun i => cover i)

end Cert.KernelIdeal.ArrayValue

end
-- ==== Proof.KernelRun.lean ====
/-
  The kernel program's run with its result named.

  The region leaves the array [8, 56, 56, 256] whose entry (b, h, w, o) is the specification's result at image
  b, pixel 56 h + w, channel o (Proof/KernelArray.lean).  The one host line after the region flattens the two
  pixel axes, so the program's result [8, 3136, 256] holds the specification's result at (b, l, o): pixel l
  sits at row l / 56, column l % 56, and 56 (l / 56) + l % 56 = l.
-/
import proofs.«101146_j12000138625349_2_alg».proof.Proof.KernelArray
import Idealize.ShloMosaic.Lib.StableHlo.Run
import Idealize.ShloMosaic.Lib.Pipeline.Value
import Idealize.ShloMosaic.PureOps.Ideal

set_option maxRecDepth 16384

noncomputable section

namespace Cert.KernelIdeal.RunValue

open Idealize.ShloMosaic Idealize.ShloMosaic.TcCoe Idealize.ShloMosaic.ValueIdx Idealize.SL.Sem
open Cert.KernelIdeal Cert.KernelIdeal.Gen Cert.KernelIdeal.HostValue Cert.KernelIdeal.ArrayValue

variable (m : (ℓ : Loc nD τ sig) → Buf (Elt Ideal) ℓ) (ρ : Dev nD → PrngReg)

/-- The program's result array: the specification's result of the seven arguments. -/
def resultArray (c : Dev nD) : FVec Ideal S8x3136x256 .f32 := fun i =>
  Cert.PatchGate.result (fun b ch r w => argX m c (ix4 b ch r w)) (fun d c' => argW1 m c (ix2 d c'))
    (fun c' => argB1 m c (ix1 c')) (fun c' d => argW2 m c (ix2 c' d)) (fun d => argB2 m c (ix1 d))
    (fun d c' => argW3 m c (ix2 d c')) (fun c' => argB3 m c (ix1 c'))
    ⟨(i 0).val, (i 0).isLt⟩ ⟨(i 1).val, (i 1).isLt⟩ ⟨(i 2).val, (i 2).isLt⟩

/-- After the host line that follows the region the result buffer is the region's output array, flattened. -/
theorem tail_eq (c : Dev nD) :
    @Eq (FVec Ideal S8x3136x256 .f32) (Pipeline.afterTail₀ cfgs (dats m) 0 (V0 m) [hostOps1] c main_v21)
      (shapeCast S8x3136x256 ((dats m 0 c).arrAt 7 cfg0.N : FVec Ideal S8x56x56x256 .f32) shapeCasts_S8x56x56x256_S8x3136x256) := by
  unfold Pipeline.afterTail₀
  show StableHlo.after hostOps1 _ (Proc.devRef .tc main_v21) = _
  after_results
  funext i
  show shapeCast S8x3136x256 _ _ i = _
  rw [Pipeline.withArrays_arr spec0 launch0.win.arr_inj c _ _ 7]

/-- So it is the specification's result. -/
theorem result_eq (c : Dev nD) :
    @Eq (FVec Ideal S8x3136x256 .f32) (Pipeline.afterTail₀ cfgs (dats m) 0 (V0 m) [hostOps1] c main_v21) (resultArray m c) := by
  rw [tail_eq, final]
  funext i
  obtain ⟨b, l, o, rfl⟩ : ∃ (b : Fin 8) (l : Fin 3136) (o : Fin 256), i = ix3 b l o := ⟨i 0, i 1, i 2, eq_ix3 i⟩
  rw [pixels_flattened]
  unfold G resultArray
  have hl := l.isLt
  refine congrArg (fun l' : Fin 3136 => Cert.PatchGate.result _ _ _ _ _ _ _ _ l' _) (Fin.ext ?_)
  show l.val / 56 * 56 + l.val % 56 = l.val
  omega

/-- Every weakly fair execution of the kernel program terminates with its result at the specification's result
    and its arguments unchanged. -/
theorem run : θ_run defs (onTc (τ := τ) (main (F := Ideal))) ⟨m, fun _ => 0, ρ⟩ (fun r => ∀ c : Dev nD,
      r.2.mem ((c.tc : Thread nD τ).loc main_v21) = resultArray m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨((h c).2 main_v21 (Pipeline.mem_restRefs_of main_v21 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c)⟩)
    (run_main m ρ)

end Cert.KernelIdeal.RunValue

end
-- ==== Proof.lean ====
/-
  The certificate of a fused 3x3-patch gated layer against its jnp reference, at the ideal values.

  Both programs map an image batch x [8, 256, 56, 56] and the weights W1, b1, W2, b2, W3, b3 to, for every
  pixel l = 56 h + w of every image b and every output channel o,
      out (b, l, o) = sum_d (t d * logistic (sum_c max (sum_d' t d' * W1 d' c + b1 c) 0 * W2 c d + b2 d)) * W3 d o + b3 o,
  where t is the pixel's 3x3 patch of the zero-padded image, 2304 = 256 * 9 numbers (`Cert.PatchGate.result`,
  Proof/Spec.lean).  The reference builds the patches channel-major (d = 9 ch + off) by slicing and
  concatenating and contracts them with the weights as given.  The kernel transposes the image to channels
  last, pads it, and per image builds the patches offset-major (k = 256 off + ch) in a scratch buffer, 14 image
  rows at a time, contracting them with weights whose patch axis the host code has permuted the same way.
  The two results differ only in the order in which each sum over the patch axis runs, and a finite sum on the
  extended reals does not depend on that order: no finiteness of the inputs is used.

  The parts: Proof/RefIsLayer.lean reads the reference's last value at an index as `result`;
  Proof/BodyTile.lean, Proof/BodyPatch.lean, Proof/BodyOut.lean read what one run of the kernel body leaves in
  its output block; Proof/KernelHost.lean reads the kernel's host lines; Proof/KernelArray.lean and
  Proof/KernelRun.lean assemble the blocks into the kernel's result array and run.  The frames of the two
  kernel programs and the run of the reference are the generated ones.  The idealization rewrote no operation,
  so `preserves` has nothing to state.
-/
import proofs.«101146_j12000138625349_2_alg».proof.Defs
import proofs.«101146_j12000138625349_2_alg».proof.Proof.Gen.Kernel
import proofs.«101146_j12000138625349_2_alg».proof.Proof.Gen.Kernel.Frame
import proofs.«101146_j12000138625349_2_alg».proof.Proof.Gen.KernelIdeal
import proofs.«101146_j12000138625349_2_alg».proof.Proof.Gen.KernelIdeal.Frame
import proofs.«101146_j12000138625349_2_alg».proof.Proof.Gen.ReferenceIdeal
import proofs.«101146_j12000138625349_2_alg».proof.Proof.Gen.ReferenceIdeal.Run
import proofs.«101146_j12000138625349_2_alg».proof.Proof.Gen.ReferenceIdeal.Read
import proofs.«101146_j12000138625349_2_alg».proof.Proof.Gen.Pre_finite_inputs
import proofs.«101146_j12000138625349_2_alg».proof.Proof.RefIsLayer
import proofs.«101146_j12000138625349_2_alg».proof.Proof.KernelRun
import Idealize.ShloMosaic.Adequacy
import Idealize.ShloMosaic.Init

noncomputable section

namespace Cert.Proof

open Idealize.ShloMosaic Idealize.ShloMosaic.TcCoe Idealize.ShloMosaic.ValueIdx Idealize.SL.Sem

theorem frame_k : Cert.frame_Kernel := fun m ρ _ => Cert.Kernel.Gen.frame m ρ

theorem frame_ki : Cert.frame_KernelIdeal := fun m ρ _ => Cert.KernelIdeal.Gen.frame m ρ

/-- The reference is host code only: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result array at `Cert.PatchGate.result` of the (agreeing) arguments. -/
theorem algebraic : Cert.algebraic_KernelIdeal_ReferenceIdeal := by
  intro m ρ m' ρ' _ hagree
  refine ⟨fun c => Cert.KernelIdeal.RunValue.resultArray m c, Cert.KernelIdeal.RunValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v41_eq, (hagree c).1, (hagree c).2.1, (hagree c).2.2.1, (hagree c).2.2.2.1,
    (hagree c).2.2.2.2.1, (hagree c).2.2.2.2.2.1, (hagree c).2.2.2.2.2.2]
  funext i
  obtain ⟨b, l, o, rfl⟩ : ∃ (b : Fin 8) (l : Fin 3136) (o : Fin 256), i = ix3 b l o := ⟨i 0, i 1, i 2, eq_ix3 i⟩
  exact Cert.ReferenceIdeal.RefValue.ref_is_result _ _ _ _ _ _ _ b l o

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
